-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  { ofTc nBuf bufTy 1 6 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v18 : BitVec 32 := Scalar.muli v2 c2_i32_12
  let v19 : BitVec 32 := Scalar.addi c0_i32_13 v18
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v20 : BitVec 32 := Scalar.muli v6 c1_i32_14
  let v21 : BitVec 32 := Scalar.addi v19 v20
  v21.toNat
def k0_dev3 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v28 : BitVec 32 := Scalar.muli v2 c2_i32_21
  let v29 : BitVec 32 := Scalar.addi c0_i32_22 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_23 : BitVec 32 := 1#32
  let v30 : BitVec 32 := Scalar.muli v6 c1_i32_23
  let v31 : BitVec 32 := Scalar.addi v29 v30
  v31.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  inb_S2_S1_0 : ∀ a, (![0] : Fin 1 → Nat) a + S1.size a ≤ S2.size a
  squeezes_S1_S_ : S1.Squeezes S_
  inb_S256x256_S128x256_0_0 : ∀ a, (![0, 0] : Fin 2 → Nat) a + S128x256.size a ≤ S256x256.size a
  wordsbf16_S256x256_S128x256_0_0 : (Rect.unit (s := S256x256) ![0, 0] S128x256.size inb_S256x256_S128x256_0_0).WholeWords (EltTy.packing .bf16)
  inb_S2_S1_1 : ∀ a, (![1] : Fin 1 → Nat) a + S1.size a ≤ S2.size a
  inb_S256x256_S128x256_128_0 : ∀ a, (![128, 0] : Fin 2 → Nat) a + S128x256.size a ≤ S256x256.size a
  wordsbf16_S256x256_S128x256_128_0 : (Rect.unit (s := S256x256) ![128, 0] S128x256.size inb_S256x256_S128x256_128_0).WholeWords (EltTy.packing .bf16)
  h_S128x256 : 0 < S128x256.numel
  shapeCasts_S128x256_S128x256 : S128x256.ShapeCasts S128x256
  hcc0_scratch2 : 2 + S2.numel ≤ 6
  hcc0_scratch3 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel

variable [Facts₀]

class Facts : Prop extends Facts₀ where

variable [Facts]
-- ==== Proof.KernelProto.lean ====
/-
  The cross-device protocol of the pairwise exchange-and-add kernel, on the 2 × 2 mesh.

  Device `c` sits at mesh position (c / 2, c % 2) and holds block `c % 2` of the 512 × 256 input. Its partner
  `peer c` is the device with the same first coordinate and the other second coordinate: `peer` swaps 0 ↔ 1 and
  2 ↔ 3, an involution. Each device converts its 256 × 256 block into a scratch buffer `conv`, tells its partner
  it has entered (one unit on the partner's barrier semaphore), waits for the partner's unit, copies the two
  128-row halves of `conv` into the partner's scratch buffer `comm`, and for each half waits for the partner's
  copy to land and stores `x + comm` on those rows.

  Five semaphore cells per device, each with ONE duty in ONE round:
  * the barrier cell: one unit from the partner's signal, which hands over the partner's `comm` buffer as its two
    row-halves (what the two copies into it need);
  * the two send cells: a half's transfer credit from the device's own copy, which hands back its `conv` half;
  * the two receive cells: a half's transfer credit from the PARTNER's copy, which hands over the device's own
    `comm` half holding the partner's converted block on those rows.
  A device owes, from launch, one unit to its partner's barrier cell and a half's credit to each of its partner's
  receive cells. Barrier cells are at level 1, receive cells at level 2, every other cell at 0: a device waits
  on its barrier cell owing only receive cells, and on every other cell owing nothing above it.
-/
import proofs.«900145_g7700000000000146_dist_ar_v7x_xy2x2_y_m256_n256_f32_1_alg».proof.Proof.Gen.Kernel
import proofs.«900145_g7700000000000146_dist_ar_v7x_xy2x2_y_m256_n256_f32_1_alg».proof.Proof.Gen.Kernel.Skeleton
import proofs.«900145_g7700000000000146_dist_ar_v7x_xy2x2_y_m256_n256_f32_1_alg».proof.Proof.Gen.Kernel.Launch
import proofs.«900145_g7700000000000146_dist_ar_v7x_xy2x2_y_m256_n256_f32_1_alg».proof.Proof.Gen.Kernel.Points
import proofs.«900145_g7700000000000146_dist_ar_v7x_xy2x2_y_m256_n256_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def ini : MemSt nD τ sig (Elt F) := ⟨m, fun _ => 0, ρ⟩

/-! ## The partner -/

/-- Same first mesh coordinate, the other second coordinate. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- The kernel's three device chains (the signal's, the two copies') all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pair : Dev nD ≃ Dev nD := ⟨peer, peer, peer_peer, peer_peer⟩

/-! ## The buffers, their halves, the cells -/

abbrev xM : Memref sig .tc .vmem S256x256 .f32 := Memref.whole cc0_stg0_0
abbrev oM : Memref sig .tc .vmem S256x256 .f32 := Memref.whole cc0_stg1_0
abbrev cvM : Memref sig .tc .vmem S256x256 .bf16 := Memref.whole cc0_scratch0
abbrev cmM : Memref sig .tc .vmem S256x256 .bf16 := Memref.whole cc0_scratch1

/-- Rows 0–127, rows 128–255, and all rows. -/
abbrev rA : Rect S256x256 := Rect.unit (s := S256x256) ![0, 0] S128x256.size inb_S256x256_S128x256_0_0
abbrev rB : Rect S256x256 := Rect.unit (s := S256x256) ![128, 0] S128x256.size inb_S256x256_S128x256_128_0
abbrev rW : Rect S256x256 := Rect.unit (s := S256x256) ![0, 0] S256x256.size inb_S256x256_S256x256_0_0

abbrev cvA : Memref sig .tc .vmem S128x256 .bf16 := cvM.slice rA (fun _ => rfl)
abbrev cvB : Memref sig .tc .vmem S128x256 .bf16 := cvM.slice rB (fun _ => rfl)
abbrev cmA : Memref sig .tc .vmem S128x256 .bf16 := cmM.slice rA (fun _ => rfl)
abbrev cmB : Memref sig .tc .vmem S128x256 .bf16 := cmM.slice rB (fun _ => rfl)

abbrev barS : Sem sig := (SemArray.scalar (sig.barrier 0 rfl) : Sems sig S_).sem
abbrev sndA : DmaSems sig S_ := (cc0_scratch2.slice (Rect.unit (s := S2) ![0] S1.size inb_S2_S1_0)).squeeze S_ squeezes_S1_S_
abbrev sndB : DmaSems sig S_ := (cc0_scratch2.slice (Rect.unit (s := S2) ![1] S1.size inb_S2_S1_1)).squeeze S_ squeezes_S1_S_
abbrev rcvA : DmaSems sig S_ := (cc0_scratch3.slice (Rect.unit (s := S2) ![0] S1.size inb_S2_S1_0)).squeeze S_ squeezes_S1_S_
abbrev rcvB : DmaSems sig S_ := (cc0_scratch3.slice (Rect.unit (s := S2) ![1] S1.size inb_S2_S1_1)).squeeze S_ squeezes_S1_S_

abbrev barCell (c : Dev nD) : GSem nD τ sig := ((c : Thread nD τ), .reg barS)
abbrev sndCellA (c : Dev nD) : GSem nD τ sig := ((c : Thread nD τ), .dma sndA.sem)
abbrev sndCellB (c : Dev nD) : GSem nD τ sig := ((c : Thread nD τ), .dma sndB.sem)
abbrev rcvCellA (c : Dev nD) : GSem nD τ sig := ((c : Thread nD τ), .dma rcvA.sem)
abbrev rcvCellB (c : Dev nD) : GSem nD τ sig := ((c : Thread nD τ), .dma rcvB.sem)

/-- The kernel's own (scoped) semaphores: send A, send B, receive A, receive B; -/
abbrev osem : Fin 4 → SemLoc sig := fun | 0 => .dma sndA.sem | 1 => .dma sndB.sem | 2 => .dma rcvA.sem | 3 => .dma rcvB.sem
/-- all five of the exchange's: the barrier's first. -/
abbrev csem : Fin 5 → SemLoc sig := fun | 0 => .reg barS | 1 => .dma sndA.sem | 2 => .dma sndB.sem | 3 => .dma rcvA.sem | 4 => .dma rcvB.sem
abbrev kcell (ck : Dev nD × Fin 5) : GSem nD τ sig := ((ck.1 : Thread nD τ), csem ck.2)

/-- A half's transfer credit. -/
abbrev N : ℕ := (cmA : Memref sig .tc .vmem S128x256 .bf16).view.dmaCredit
theorem N_pos : 0 < N := View.dmaCredit_pos _ (by decide)
theorem N_B : (cmB : Memref sig .tc .vmem S128x256 .bf16).view.dmaCredit = N := rfl

theorem sndA_ne_bar : (SemLoc.dma sndA.sem : SemLoc sig) ≠ .reg barS := fun h => by cases h
theorem sndB_ne_bar : (SemLoc.dma sndB.sem : SemLoc sig) ≠ .reg barS := fun h => by cases h
theorem rcvA_ne_bar : (SemLoc.dma rcvA.sem : SemLoc sig) ≠ .reg barS := fun h => by cases h
theorem rcvB_ne_bar : (SemLoc.dma rcvB.sem : SemLoc sig) ≠ .reg barS := fun h => by cases h
theorem sndA_ne_sndB : (SemLoc.dma sndA.sem : SemLoc sig) ≠ .dma sndB.sem := by decide
theorem sndA_ne_rcvA : (SemLoc.dma sndA.sem : SemLoc sig) ≠ .dma rcvA.sem := by decide
theorem sndA_ne_rcvB : (SemLoc.dma sndA.sem : SemLoc sig) ≠ .dma rcvB.sem := by decide
theorem sndB_ne_rcvA : (SemLoc.dma sndB.sem : SemLoc sig) ≠ .dma rcvA.sem := by decide
theorem sndB_ne_rcvB : (SemLoc.dma sndB.sem : SemLoc sig) ≠ .dma rcvB.sem := by decide
theorem rcvA_ne_rcvB : (SemLoc.dma rcvA.sem : SemLoc sig) ≠ .dma rcvB.sem := by decide
theorem rcvB_ne_rcvA : (SemLoc.dma rcvB.sem : SemLoc sig) ≠ .dma rcvA.sem := by decide

/-! ## The two halves tile the buffer -/

theorem hz : (![0, 0] : Fin 2 → Nat) = fun _ => 0 := funext fun a => by fin_cases a <;> rfl

theorem halves_disjoint : Disjoint rA.set rB.set := Rect.unit_disjoint (0 : Fin 2) (Or.inl (by decide))

theorem halves_cover (y : S256x256.Idx) : y ∈ rA.set ∨ y ∈ rB.set := by
  have h0 : (y 0 : ℕ) < 256 := (y 0).isLt
  have h1 : (y 1 : ℕ) < 256 := (y 1).isLt
  by_cases h : (y 0 : ℕ) < 128
  · refine Or.inl (Rect.mem_set_unit.mpr (Fin.forall_fin_two.mpr ⟨⟨Nat.zero_le _, ?_⟩, ⟨Nat.zero_le _, ?_⟩⟩))
    · show (y 0 : ℕ) < 0 + 128; omega
    · show (y 1 : ℕ) < 0 + 256; omega
  · refine Or.inr (Rect.mem_set_unit.mpr (Fin.forall_fin_two.mpr ⟨⟨?_, ?_⟩, ⟨Nat.zero_le _, ?_⟩⟩))
    · show 128 ≤ (y 0 : ℕ); omega
    · show (y 0 : ℕ) < 128 + 128; omega
    · show (y 1 : ℕ) < 0 + 256; omega

theorem halves_univ : rA.set ∪ rB.set = (Finset.univ : Finset S256x256.Idx) :=
  Finset.eq_univ_iff_forall.mpr fun y => Finset.mem_union.mpr (halves_cover y)

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))

/-- The block converted to the narrow format: what `conv` holds from the first store on. -/
def convOf (c : Dev nD) : (cc0_scratch0 : Ref sig .tc).ty.Contents (Elt F) := k0_pay2 (xstg m c)

/-- The result on device `c`: on each half of the rows, its block plus the partner's converted block widened back. -/
def outAt (c : Dev nD) : (cc0_stg1_0 : Ref sig .tc).ty.Contents (Elt F) :=
  View.canon [⟨rB, k0_pay1 (View.ld (xstg m c) rB) (View.ld (convOf m (peer c)) rB)⟩,
    ⟨rA, k0_pay3 (View.ld (xstg m c) rA) (View.ld (convOf m (peer c)) rA)⟩]

/-! ## The scratch buffers, whole and by halves -/

def cvPtsA (c : Dev nD) (f : Buf (Elt F) (cvA.view.loc (c : Thread nD τ))) : sProp 𝕄 := cvA.view.loc (c : Thread nD τ) ↦[cvA.view.set]{fullShare} f
def cvPtsB (c : Dev nD) (f : Buf (Elt F) (cvB.view.loc (c : Thread nD τ))) : sProp 𝕄 := cvB.view.loc (c : Thread nD τ) ↦[cvB.view.set]{fullShare} f
def cmPtsA (c : Dev nD) (f : Buf (Elt F) (cmA.view.loc (c : Thread nD τ))) : sProp 𝕄 := cmA.view.loc (c : Thread nD τ) ↦[cmA.view.set]{fullShare} f
def cmPtsB (c : Dev nD) (f : Buf (Elt F) (cmB.view.loc (c : Thread nD τ))) : sProp 𝕄 := cmB.view.loc (c : Thread nD τ) ↦[cmB.view.set]{fullShare} f
def xPts (c : Dev nD) : sProp 𝕄 := ((c : Thread nD τ).loc cc0_stg0_0) ↦{fullShare} xstg m c

omit [FloatOps F] in
instance cvPtsA_storable (c : Dev nD) (f) : BI.Storable (upEmb : UEmb _ 𝕄) (cvPtsA (F := F) c f) := by unfold cvPtsA; infer_instance
omit [FloatOps F] in
instance cvPtsB_storable (c : Dev nD) (f) : BI.Storable (upEmb : UEmb _ 𝕄) (cvPtsB (F := F) c f) := by unfold cvPtsB; infer_instance
omit [FloatOps F] in
instance cmPtsA_storable (c : Dev nD) (f) : BI.Storable (upEmb : UEmb _ 𝕄) (cmPtsA (F := F) c f) := by unfold cmPtsA; infer_instance
omit [FloatOps F] in
instance cmPtsB_storable (c : Dev nD) (f) : BI.Storable (upEmb : UEmb _ 𝕄) (cmPtsB (F := F) c f) := by unfold cmPtsB; infer_instance

omit [FloatOps F] in
theorem cv_setA : cvA.view.set = rA.set := View.set_slice_whole cc0_scratch0 rA
omit [FloatOps F] in
theorem cv_setB : cvB.view.set = rB.set := View.set_slice_whole cc0_scratch0 rB
omit [FloatOps F] in
theorem cm_setA : cmA.view.set = rA.set := View.set_slice_whole cc0_scratch1 rA
omit [FloatOps F] in
theorem cm_setB : cmB.view.set = rB.set := View.set_slice_whole cc0_scratch1 rB

omit [FloatOps F] in
/-- A scratch buffer held whole is its two row-halves held side by side. -/
theorem cv_halves (c : Dev nD) (f : Buf (Elt F) ((c : Thread nD τ).loc cc0_scratch0)) :
    ((((c : Thread nD τ).loc cc0_scratch0) ↦{fullShare} f : sProp 𝕄)) ⊣⊢ iprop(cvPtsA c f ∗ cvPtsB c f) := by
  unfold cvPtsA cvPtsB
  rw [cv_setA, cv_setB]
  have h := pointsTo_union (Ix := Unit) (Name := ℕ) (U := UU) (Lvl := ℕ) (Val := Elt F) (ℓ := (c : Thread nD τ).loc cc0_scratch0) (q := fullShare) (f := f) halves_disjoint
  rw [halves_univ] at h
  exact h
omit [FloatOps F] in
theorem cm_halves (c : Dev nD) (f : Buf (Elt F) ((c : Thread nD τ).loc cc0_scratch1)) :
    ((((c : Thread nD τ).loc cc0_scratch1) ↦{fullShare} f : sProp 𝕄)) ⊣⊢ iprop(cmPtsA c f ∗ cmPtsB c f) := by
  unfold cmPtsA cmPtsB
  rw [cm_setA, cm_setB]
  have h := pointsTo_union (Ix := Unit) (Name := ℕ) (U := UU) (Lvl := ℕ) (Val := Elt F) (ℓ := (c : Thread nD τ).loc cc0_scratch1) (q := fullShare) (f := f) halves_disjoint
  rw [halves_univ] at h
  exact h

omit [FloatOps F] in
/-- Two halves held at different contents are the whole buffer at some contents. -/
theorem cv_join (c : Dev nD) (f g : Buf (Elt F) ((c : Thread nD τ).loc cc0_scratch0)) :
    iprop(cvPtsA c f ∗ cvPtsB c g) ⊢ (iprop(∃ h, ((c : Thread nD τ).loc cc0_scratch0) ↦{fullShare} h) : sProp 𝕄) := by
  unfold cvPtsA cvPtsB
  rw [cv_setA, cv_setB]
  refine (pointsTo_join (Ix := Unit) (Name := ℕ) (U := UU) (Lvl := ℕ) (Val := Elt F) (ℓ := (c : Thread nD τ).loc cc0_scratch0) (q := fullShare) halves_disjoint).trans ?_
  rw [halves_univ]
  iintro H; iexists _; iexact H
omit [FloatOps F] in
theorem cm_join (c : Dev nD) (f g : Buf (Elt F) ((c : Thread nD τ).loc cc0_scratch1)) :
    iprop(cmPtsA c f ∗ cmPtsB c g) ⊢ (iprop(∃ h, ((c : Thread nD τ).loc cc0_scratch1) ↦{fullShare} h) : sProp 𝕄) := by
  unfold cmPtsA cmPtsB
  rw [cm_setA, cm_setB]
  refine (pointsTo_join (Ix := Unit) (Name := ℕ) (U := UU) (Lvl := ℕ) (Val := Elt F) (ℓ := (c : Thread nD τ).loc cc0_scratch1) (q := fullShare) halves_disjoint).trans ?_
  rw [halves_univ]
  iintro H; iexists _; iexact H

omit [FloatOps F] in
/-- What a copy of a half leaves on the destination's rows is the source's contents there, whatever was there before. -/
theorem landedA (c c' : Dev nD) (fd : Buf (Elt F) (cmA.view.loc (c : Thread nD τ))) (fs : Buf (Elt F) (cvA.view.loc (c' : Thread nD τ))) :
    (cmA.view.loc (c : Thread nD τ) ↦[cmA.view.set]{fullShare} (cmA.view.write (Elt F) fd (cvA.view.read (Elt F) fs) Finset.univ) : sProp 𝕄)
      = cmPtsA c fs := by
  unfold cmPtsA
  refine pointsTo_congr fun i hi => ?_
  obtain ⟨y, rfl⟩ := View.exists_emb_of_mem_set _ hi
  rw [View.write_emb_of_mem _ _ (Finset.mem_univ y)]
  rfl
omit [FloatOps F] in
theorem landedB (c c' : Dev nD) (fd : Buf (Elt F) (cmB.view.loc (c : Thread nD τ))) (fs : Buf (Elt F) (cvB.view.loc (c' : Thread nD τ))) :
    (cmB.view.loc (c : Thread nD τ) ↦[cmB.view.set]{fullShare} (cmB.view.write (Elt F) fd (cvB.view.read (Elt F) fs) Finset.univ) : sProp 𝕄)
      = cmPtsB c fs := by
  unfold cmPtsB
  refine pointsTo_congr fun i hi => ?_
  obtain ⟨y, rfl⟩ := View.exists_emb_of_mem_set _ hi
  rw [View.write_emb_of_mem _ _ (Finset.mem_univ y)]
  rfl

/-! ## The schedule -/

/-- The partner's signal hands over the partner's `comm` buffer, by halves. -/
def barPay (c : Dev nD) : sProp 𝕄 := iprop((∃ f, cmPtsA (peer c) f) ∗ (∃ f, cmPtsB (peer c) f))
/-- The partner's copy of a half hands over this device's `comm` half at the partner's converted block. -/
def rcvPayA (c : Dev nD) : sProp 𝕄 := cmPtsA c (convOf m (peer c))
def rcvPayB (c : Dev nD) : sProp 𝕄 := cmPtsB c (convOf m (peer c))
/-- The device's own copy of a half hands back its `conv` half. -/
def sndPayA (c : Dev nD) : sProp 𝕄 := cvPtsA c (convOf m c)
def sndPayB (c : Dev nD) : sProp 𝕄 := cvPtsB c (convOf m c)

/-- One round, round 0, one duty per cell: a barrier cell's of one unit, a send or receive cell's of a half's credit. -/
def sched : Rounds.Schedule (GSem nD τ sig) Unit 𝕄 where
  duties _ r := if r = 0 then {()} else ∅
  unitless _ := False
  amount g _ _ := if g.2 = .reg barS then 1 else N
  payload g _ _ :=
    if g.2 = .reg barS then barPay g.1.1
    else if g.2 = .dma rcvA.sem then rcvPayA m g.1.1
    else if g.2 = .dma rcvB.sem then rcvPayB m g.1.1
    else if g.2 = .dma sndA.sem then sndPayA m g.1.1
    else if g.2 = .dma sndB.sem then sndPayB m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma rcvA.sem then rcvPayA m g.1.1
    else if g.2 = .dma rcvB.sem then rcvPayB m g.1.1
    else if g.2 = .dma sndA.sem then sndPayA m g.1.1
    else if g.2 = .dma sndB.sem then sndPayB m g.1.1
    else iprop(emp))
  unfold barPay rcvPayA rcvPayB sndPayA sndPayB
  (repeat' split) <;> infer_instance

section Sched
variable (c : Dev nD)

theorem duties_zero (g : GSem nD τ sig) : (sched (F := F) m).duties g 0 = {()} := by dsimp only [sched]; exact if_pos rfl
theorem duties_later (g : GSem nD τ sig) : ∀ r, 1 ≤ r → (sched (F := F) m).duties g r = ∅ :=
  fun r hr => by dsimp only [sched]; rw [if_neg fun h => by omega]
theorem mem_duties (g : GSem nD τ sig) : () ∈ (sched (F := F) m).duties g 0 := by rw [duties_zero]; exact Finset.mem_singleton_self _

theorem amount_bar (d : Unit) : (sched (F := F) m).amount (barCell c) 0 d = 1 := by dsimp only [sched]; exact if_pos rfl
theorem amount_sndA (d : Unit) : (sched (F := F) m).amount (sndCellA c) 0 d = N := by dsimp only [sched]; exact if_neg sndA_ne_bar
theorem amount_sndB (d : Unit) : (sched (F := F) m).amount (sndCellB c) 0 d = N := by dsimp only [sched]; exact if_neg sndB_ne_bar
theorem amount_rcvA (d : Unit) : (sched (F := F) m).amount (rcvCellA c) 0 d = N := by dsimp only [sched]; exact if_neg rcvA_ne_bar
theorem amount_rcvB (d : Unit) : (sched (F := F) m).amount (rcvCellB c) 0 d = N := by dsimp only [sched]; exact if_neg rcvB_ne_bar

theorem expect_bar : (sched (F := F) m).expect (barCell c) 0 = 1 := by
  unfold Schedule.expect Schedule.amountOf; rw [duties_zero, Finset.sum_singleton, amount_bar]
theorem expect_sndA : (sched (F := F) m).expect (sndCellA c) 0 = N := by
  unfold Schedule.expect Schedule.amountOf; rw [duties_zero, Finset.sum_singleton, amount_sndA]
theorem expect_sndB : (sched (F := F) m).expect (sndCellB c) 0 = N := by
  unfold Schedule.expect Schedule.amountOf; rw [duties_zero, Finset.sum_singleton, amount_sndB]
theorem expect_rcvA : (sched (F := F) m).expect (rcvCellA c) 0 = N := by
  unfold Schedule.expect Schedule.amountOf; rw [duties_zero, Finset.sum_singleton, amount_rcvA]
theorem expect_rcvB : (sched (F := F) m).expect (rcvCellB c) 0 = N := by
  unfold Schedule.expect Schedule.amountOf; rw [duties_zero, Finset.sum_singleton, amount_rcvB]

theorem payload_bar (d : Unit) : (sched (F := F) m).payload (barCell c) 0 d = barPay c := by dsimp only [sched]; rw [if_pos rfl]
theorem payload_rcvA (d : Unit) : (sched (F := F) m).payload (rcvCellA c) 0 d = rcvPayA m c := by
  dsimp only [sched]; rw [if_neg rcvA_ne_bar, if_pos rfl]
theorem payload_rcvB (d : Unit) : (sched (F := F) m).payload (rcvCellB c) 0 d = rcvPayB m c := by
  dsimp only [sched]; rw [if_neg rcvB_ne_bar, if_neg rcvB_ne_rcvA, if_pos rfl]
theorem payload_sndA (d : Unit) : (sched (F := F) m).payload (sndCellA c) 0 d = sndPayA m c := by
  dsimp only [sched]; rw [if_neg sndA_ne_bar, if_neg sndA_ne_rcvA, if_neg sndA_ne_rcvB, if_pos rfl]
theorem payload_sndB (d : Unit) : (sched (F := F) m).payload (sndCellB c) 0 d = sndPayB m c := by
  dsimp only [sched]; rw [if_neg sndB_ne_bar, if_neg sndB_ne_rcvA, if_neg sndB_ne_rcvB, if_neg sndA_ne_sndB.symm, if_pos rfl]

/-- The rest of a cell's round with no duty taken: its one payload. -/
theorem rest_bar : bigSep ((sched (F := F) m).duties (barCell c) 0 \ ∅) (fun d => (sched (F := F) m).payload (barCell c) 0 d) = barPay c := by
  rw [Finset.sdiff_empty, duties_zero, bigSep_singleton, payload_bar]
theorem rest_rcvA : bigSep ((sched (F := F) m).duties (rcvCellA c) 0 \ ∅) (fun d => (sched (F := F) m).payload (rcvCellA c) 0 d) = rcvPayA m c := by
  rw [Finset.sdiff_empty, duties_zero, bigSep_singleton, payload_rcvA]
theorem rest_rcvB : bigSep ((sched (F := F) m).duties (rcvCellB c) 0 \ ∅) (fun d => (sched (F := F) m).payload (rcvCellB c) 0 d) = rcvPayB m c := by
  rw [Finset.sdiff_empty, duties_zero, bigSep_singleton, payload_rcvB]
theorem rest_sndA : bigSep ((sched (F := F) m).duties (sndCellA c) 0 \ ∅) (fun d => (sched (F := F) m).payload (sndCellA c) 0 d) = sndPayA m c := by
  rw [Finset.sdiff_empty, duties_zero, bigSep_singleton, payload_sndA]
theorem rest_sndB : bigSep ((sched (F := F) m).duties (sndCellB c) 0 \ ∅) (fun d => (sched (F := F) m).payload (sndCellB c) 0 d) = sndPayB m c := by
  rw [Finset.sdiff_empty, duties_zero, bigSep_singleton, payload_sndB]

end Sched

/-! ## What each device owes at launch; the levels -/

/-- Device `c` owes its partner's two receive cells a half's credit each and its partner's barrier cell one unit —
    summed so that the signal peels the last summand, the first copy the middle one, the second copy the first. -/
def O₂ (c : Dev nD) : CellTallies nD τ sig Unit := tallyAt (rcvCellB (peer c)) () N
def O₁ (c : Dev nD) : CellTallies nD τ sig Unit := O₂ c + tallyAt (rcvCellA (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma rcvA.sem ∨ g.2 = .dma rcvB.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rcvA (c : Dev nD) (u : Unit) : lv (rcvCellA c) u = 2 := by dsimp only [lv]; rw [if_neg rcvA_ne_bar, if_pos (Or.inl rfl)]
theorem lv_rcvB (c : Dev nD) (u : Unit) : lv (rcvCellB c) u = 2 := by dsimp only [lv]; rw [if_neg rcvB_ne_bar, if_pos (Or.inr rfl)]

theorem O₁_pos {c : Dev nD} {g : GSem nD τ sig} {u : Unit} (h : 0 < O₁ c g u) : g = rcvCellB (peer c) ∨ g = rcvCellA (peer c) := by
  unfold O₁ O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvCellB (peer c) ∨ g = rcvCellA (peer c) ∨ g = barCell (peer c) := by
  unfold O₀ O₁ O₂ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

/-- The pipeline's own staging waits (level 0) sit below everything a device owes. -/
theorem mayWait_stage (c : Dev nD) (q : DmaSem sig) (hq : SemLoc.dma q ≠ .dma rcvA.sem ∧ SemLoc.dma q ≠ .dma rcvB.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg (fun h => h.elim hq.1 hq.2)])
      (fun g u hg => by
        rcases O₀_pos hg with rfl | rfl | rfl
        · rw [lv_rcvB]; decide
        · rw [lv_rcvA]; decide
        · rw [lv_bar]; decide)
  · rw [MayWait_zero]; iintro -; iempintro

/-- At its barrier wait a device owes its partner's two receive credits only: receive cells, above barrier cells. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_rcvB]; decide
      · rw [lv_rcvA]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, and its
    partner's barrier and receive cells (its signal, its two copies). -/
def invs (K : Dev nD × Fin 5 → ℕ) (c : Dev nD) : sProp 𝕄 :=
  iprop(cellInv ER (sched m) (K (c, 0)) (barCell c) ∗ cellInv ER (sched m) (K (c, 1)) (sndCellA c) ∗ cellInv ER (sched m) (K (c, 2)) (sndCellB c)
    ∗ cellInv ER (sched m) (K (c, 3)) (rcvCellA c) ∗ cellInv ER (sched m) (K (c, 4)) (rcvCellB c)
    ∗ cellInv ER (sched m) (K (peer c, 0)) (barCell (peer c)) ∗ cellInv ER (sched m) (K (peer c, 3)) (rcvCellA (peer c))
    ∗ cellInv ER (sched m) (K (peer c, 4)) (rcvCellB (peer c)))

instance invs_persistent (K : Dev nD × Fin 5 → ℕ) (c : Dev nD) : BI.Persistent (invs m K c) := by unfold invs; infer_instance

/-- The exchange's ghost state device `c` starts from: the invariants; its positions at round 0 of its five cells; that
    round 0 of each cell it pays is reached; the five duty tokens it pays with — its partner's barrier and receive
    duties, its own two send duties. -/
def ghost (K : Dev nD × Fin 5 → ℕ) (c : Dev nD) : sProp 𝕄 :=
  iprop(invs m K c
    ∗ atPos ER (barCell c) 0 ∅ 0 ∗ atPos ER (sndCellA c) 0 ∅ 0 ∗ atPos ER (sndCellB c) 0 ∅ 0 ∗ atPos ER (rcvCellA c) 0 ∅ 0 ∗ atPos ER (rcvCellB c) 0 ∅ 0
    ∗ reached ER (barCell (peer c)) 0 ∗ reached ER (rcvCellA (peer c)) 0 ∗ reached ER (rcvCellB (peer c)) 0 ∗ reached ER (sndCellA c) 0 ∗ reached ER (sndCellB c) 0
    ∗ dutyTok ER (barCell (peer c)) 0 () ∗ dutyTok ER (rcvCellA (peer c)) 0 () ∗ dutyTok ER (rcvCellB (peer c)) 0 () ∗ dutyTok ER (sndCellA c) 0 () ∗ dutyTok ER (sndCellB c) 0 ())

/-- What device `c`'s body starts from: that at some names, the credit of its barrier cell and of its two receive cells,
    and the level facts. -/
def start (c : Dev nD) : sProp 𝕄 :=
  iprop((∃ K, ghost m K c) ∗ cred (tallyAt (barCell c) () 1) ∗ cred (tallyAt (rcvCellA c) () N) ∗ cred (tallyAt (rcvCellB c) () N) ∗ levAts L lv)

abbrev scratchRest (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratchRest c)
/-- After the point: both scratch buffers whole again, the four own cells at zero, closed (the barrier cell is the
    runtime's: nothing to hand back). -/
def Φ₁ (c : Dev nD) : sProp 𝕄 :=
  iprop(scratchRest c ∗ semVal (sndCellA c) 0 ∗ semVal (sndCellB c) 0 ∗ semVal (rcvCellA c) 0 ∗ semVal (rcvCellB c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelProof

end
-- ==== Proof.KernelBody.lean ====
/-
  One device's body of the pairwise exchange-and-add kernel, run from the exchange's ghost state.

  In program order: the unit to the partner's barrier cell (handing over this device's `comm` buffer by halves), the
  block converted into `conv`, the wait for the partner's unit (which brings the partner's `comm` halves), the two
  copies of `conv`'s halves into them, and per half the wait for the partner's copy and the store of `x + comm` on
  those rows; last the two waits that bring `conv`'s halves back.
-/
import proofs.«900145_g7700000000000146_dist_ar_v7x_xy2x2_y_m256_n256_f32_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

section Body

variable (K : Dev nD × Fin 5 → ℕ)

def bodyPre (c : Dev nD) : sProp 𝕄 :=
  iprop((ghost m K c ∗ cred (tallyAt (barCell c) () 1) ∗ cred (tallyAt (rcvCellA c) () N) ∗ cred (tallyAt (rcvCellB c) () N) ∗ levAts L lv ∗ scratchRest c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

omit [FloatOps F] in
theorem whole_pts (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  have h : (Memref.whole b : Memref sig .tc _ _ _).view.set = Finset.univ := View.set_whole _
  rw [h]

omit [FloatOps F] in
/-- A buffer held through its whole view, its contents named. -/
theorem whole_pts_named (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      ⊢ iprop(∃ g : Buf (Elt F) ((c : Thread nD τ).loc b), ⌜g = f⌝ ∗ (((c : Thread nD τ).loc b) ↦{fullShare} g)) := by
  rw [whole_pts]
  iintro H; iexists f; isplitr; · ipureintro; rfl
  iexact H

set_option maxHeartbeats 1000000 in
/-- The two stores cover the output buffer, so what they leave is the result, whatever the buffer held. -/
theorem out_eq (c : Dev nD) (g1 : Buf (Elt F) ((c : Thread nD τ).loc cc0_stg1_0)) :
    (Memref.whole cc0_stg1_0 : Memref sig .tc _ _ _).view.writes (Elt F) g1
      [⟨rB, k0_pay1 (View.readAt (Elt F) (Memref.whole cc0_stg0_0 : Memref sig .tc _ _ _).view rB.toLoadRect (xstg m c))
          (View.readAt (Elt F) (Memref.whole cc0_scratch1 : Memref sig .tc _ _ _).view rB.toLoadRect (convOf m (peer c)))⟩,
        ⟨rA, k0_pay3 (View.readAt (Elt F) (Memref.whole cc0_stg0_0 : Memref sig .tc _ _ _).view rA.toLoadRect (xstg m c))
          (View.readAt (Elt F) (Memref.whole cc0_scratch1 : Memref sig .tc _ _ _).view rA.toLoadRect (convOf m (peer c)))⟩] = outAt m c := by
  have hcov : ∀ (L : List (View.Piece (Elt F) S256x256 .f32)) (pB pA : _), L = [⟨rB, pB⟩, ⟨rA, pA⟩] → ∀ y, ∃ pc ∈ L, y ∈ pc.1.set := by
    rintro L pB pA rfl y
    exact (halves_cover y).elim
      (fun h => ⟨_, List.mem_cons_of_mem _ (List.mem_singleton_self _), h⟩)
      (fun h => ⟨_, List.mem_cons_self, h⟩)
  have h := View.read_writes_eq_canon (View.whole cc0_stg1_0) g1
    [⟨rB, k0_pay1 (View.ld (xstg m c) rB) (View.ld (convOf m (peer c)) rB)⟩,
      ⟨rA, k0_pay3 (View.ld (xstg m c) rA) (View.ld (convOf m (peer c)) rA)⟩] (hcov _ _ _ rfl)
  exact h

/-- The schedule's payloads down to the buffers they hand over. -/
theorem pl_bar (c : Dev nD) (d : Unit) : (sched (F := F) m).payload (barCell c) 0 d
    = iprop((∃ f, cmA.view.loc (peer c : Thread nD τ) ↦[cmA.view.set]{fullShare} f) ∗ (∃ f, cmB.view.loc (peer c : Thread nD τ) ↦[cmB.view.set]{fullShare} f)) := by
  rw [payload_bar]; rfl
theorem pl_rcvA (c : Dev nD) (d : Unit) : (sched (F := F) m).payload (rcvCellA c) 0 d
    = (cmA.view.loc (c : Thread nD τ) ↦[cmA.view.set]{fullShare} convOf m (peer c)) := by rw [payload_rcvA]; rfl
theorem pl_rcvB (c : Dev nD) (d : Unit) : (sched (F := F) m).payload (rcvCellB c) 0 d
    = (cmB.view.loc (c : Thread nD τ) ↦[cmB.view.set]{fullShare} convOf m (peer c)) := by rw [payload_rcvB]; rfl
theorem pl_sndA (c : Dev nD) (d : Unit) : (sched (F := F) m).payload (sndCellA c) 0 d
    = (cvA.view.loc (c : Thread nD τ) ↦[cvA.view.set]{fullShare} convOf m c) := by rw [payload_sndA]; rfl
theorem pl_sndB (c : Dev nD) (d : Unit) : (sched (F := F) m).payload (sndCellB c) 0 d
    = (cvB.view.loc (c : Thread nD τ) ↦[cvB.view.set]{fullShare} convOf m c) := by rw [payload_sndB]; rfl

theorem peer3 (p : Dev nD) : peer (peer (peer p)) = peer p := by rw [peer_peer]

attribute [local sl_rounds] duties_zero amount_bar amount_sndA amount_sndB amount_rcvA amount_rcvB
  pl_bar pl_rcvA pl_rcvB pl_sndA pl_sndB peer3

/-- At its barrier wait a device owes two receive credits only, whoever's: receive cells, above barrier cells. -/
theorem mayWait_barG (c q : Dev nD) :
    (levAts L lv : sProp 𝕄) ⊢ MayWait (c : Thread nD τ) (.reg barS) () (tallyAt (rcvCellB q) () N + tallyAt (rcvCellA q) () N) := by
  have hpos : ∀ {g : GSem nD τ sig} {u : Unit}, 0 < (tallyAt (rcvCellB q) () N + tallyAt (rcvCellA q) () N : CellTallies nD τ sig Unit) g u → g = rcvCellB q ∨ g = rcvCellA q := by
    intro g u h
    rw [Pi.add_apply, Finsupp.add_apply, tallyAt_apply, tallyAt_apply] at h
    by_contra hn
    rw [not_or] at hn
    rw [if_neg (fun h' => hn.1 h'.1), if_neg (fun h' => hn.2 h'.1)] at h
    exact Nat.lt_irrefl 0 h
  exact MayOwe.of_cut (L := L) (lev := lv) 1 (fun p hp => by rw [Finset.mem_singleton.mp hp, L_tc]; exact Finset.mem_singleton_self _)
    (fun g u hg => by rcases hpos hg with rfl | rfl <;> exact Finset.mem_singleton_self _)
    (fun p hp => by rw [Finset.mem_singleton.mp hp]; exact le_of_eq (lv_bar c ()))
    (fun g u hg => by
      rcases hpos hg with rfl | rfl
      · rw [lv_rcvB]; decide
      · rw [lv_rcvA]; decide)

/-- The copy of the first half, by the send rule: the device lends its `conv` half and pays the arrival duty of `q`'s
    first receive cell with `q`'s `comm` half, which the copy leaves at the converted block. -/
theorem wp_sendA (c q : Dev nD) (hq : peer q = c) {hsc : (cmA : Memref sig (Dev.tc q : Thread nD τ).2.kind .vmem S128x256 .bf16).view.ref.isScScratch = false}
    {hsrc : cvA.view.WordExact} {hdst : cmA.view.WordExact}
    {hsem : DmaTarget.Typed .vmem (.dma rcvA.sem) (.remote (Dev.tc q : Thread nD τ) cmA (.dma sndA.sem) hsc)}
    {α : Type} {Q : α → sProp 𝕄} {k : PUnit → Prog (TpuEff nD τ sig (Elt F) Λ₀ .tc) α}
    (fn : Buf (Elt F) (cmA.view.loc (q : Thread nD τ))) (O : CellTallies nD τ sig Unit) (W : Waits sig Unit) :
    iprop(cellInv ER (sched m) (K (c, 1)) (sndCellA c) ∗ cellInv ER (sched m) (K (q, 3)) (rcvCellA q)
        ∗ (cvA.view.loc (c : Thread nD τ) ↦[cvA.view.set]{fullShare} convOf m c) ∗ (cmA.view.loc (q : Thread nD τ) ↦[cmA.view.set]{fullShare} fn)
        ∗ owes (c : Thread nD τ) (O + tallyAt (rcvCellA q) () N) W
        ∗ dutyTok ER (sndCellA c) 0 () ∗ reached ER (sndCellA c) 0
        ∗ dutyTok ER (rcvCellA q) 0 () ∗ reached ER (rcvCellA q) 0)
      ⊢ iprop(((cred (tallyAt (sndCellA c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cvA (.remote (Dev.tc q : Thread nD τ) cmA (.dma sndA.sem) hsc) (.dma rcvA.sem) hsrc hdst hsem) k) Q) :=
  Rounds.wp_send_pointsTo 𝒱₀ ER (sched m) (c : Thread nD τ) none (κ₁ := K (c, 1)) (κ₂ := K (q, 3))
    (r₁ := 0) (r₂ := 0) (d₁ := ()) (d₂ := ()) (fd := fn)
    (mem_duties m _) (mem_duties m _)
    () () N rfl (amount_sndA m c ()) (amount_rcvA m q ()) O rfl (W := W)
    (Entails.of_eq (by rw [payload_sndA]; rfl))
    (Entails.of_eq (by rw [payload_rcvA, landedA q c fn (convOf m c)]; unfold rcvPayA; rw [hq]))

/-- The copy of the second half, likewise; after it the device owes nothing. -/
theorem wp_sendB (c q : Dev nD) (hq : peer q = c) {hsc : (cmB : Memref sig (Dev.tc q : Thread nD τ).2.kind .vmem S128x256 .bf16).view.ref.isScScratch = false}
    {hsrc : cvB.view.WordExact} {hdst : cmB.view.WordExact}
    {hsem : DmaTarget.Typed .vmem (.dma rcvB.sem) (.remote (Dev.tc q : Thread nD τ) cmB (.dma sndB.sem) hsc)}
    {α : Type} {Q : α → sProp 𝕄} {k : PUnit → Prog (TpuEff nD τ sig (Elt F) Λ₀ .tc) α}
    (fn : Buf (Elt F) (cmB.view.loc (q : Thread nD τ))) (W : Waits sig Unit) :
    iprop(cellInv ER (sched m) (K (c, 2)) (sndCellB c) ∗ cellInv ER (sched m) (K (q, 4)) (rcvCellB q)
        ∗ (cvB.view.loc (c : Thread nD τ) ↦[cvB.view.set]{fullShare} convOf m c) ∗ (cmB.view.loc (q : Thread nD τ) ↦[cmB.view.set]{fullShare} fn)
        ∗ owes (c : Thread nD τ) (tallyAt (rcvCellB q) () N) W
        ∗ dutyTok ER (sndCellB c) 0 () ∗ reached ER (sndCellB c) 0
        ∗ dutyTok ER (rcvCellB q) 0 () ∗ reached ER (rcvCellB q) 0)
      ⊢ iprop(((cred (tallyAt (sndCellB c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cvB (.remote (Dev.tc q : Thread nD τ) cmB (.dma sndB.sem) hsc) (.dma rcvB.sem) hsrc hdst hsem) k) Q) :=
  Rounds.wp_send_pointsTo 𝒱₀ ER (sched m) (c : Thread nD τ) none (κ₁ := K (c, 2)) (κ₂ := K (q, 4))
    (r₁ := 0) (r₂ := 0) (d₁ := ()) (d₂ := ()) (fd := fn)
    (mem_duties m _) (mem_duties m _)
    () () N (by rfl) (amount_sndB m c ()) (amount_rcvB m q ()) 0 (zero_add _).symm (W := W)
    (Entails.of_eq (by rw [payload_sndB]; rfl))
    (Entails.of_eq (by rw [payload_rcvB, landedB q c fn (convOf m c)]; unfold rcvPayB; rw [hq]))

set_option maxHeartbeats 1600000 in
/-- The body on device `c`, whose barrier unit goes to `p` and whose two copies go to `q`. -/
theorem body_at (p c q : Dev nD) (hc : c = peer p) (hq : q = peer c) (Kt : PUnit → sProp 𝕄) (W : Waits sig Unit)
    (fcv : Buf (Elt F) ((c : Thread nD τ).loc cc0_scratch0)) (fcm : Buf (Elt F) ((c : Thread nD τ).loc cc0_scratch1))
    (g1 : Buf (Elt F) ((c : Thread nD τ).loc cc0_stg1_0)) :
    iprop((((cellInv ER (sched m) (K (c, 0)) (barCell c) ∗ cellInv ER (sched m) (K (c, 1)) (sndCellA c) ∗ cellInv ER (sched m) (K (c, 2)) (sndCellB c)
        ∗ cellInv ER (sched m) (K (c, 3)) (rcvCellA c) ∗ cellInv ER (sched m) (K (c, 4)) (rcvCellB c)
        ∗ cellInv ER (sched m) (K (p, 0)) (barCell p) ∗ cellInv ER (sched m) (K (q, 3)) (rcvCellA q)
        ∗ cellInv ER (sched m) (K (q, 4)) (rcvCellB q))
      ∗ atPos ER (barCell c) 0 ∅ 0 ∗ atPos ER (sndCellA c) 0 ∅ 0 ∗ atPos ER (sndCellB c) 0 ∅ 0 ∗ atPos ER (rcvCellA c) 0 ∅ 0 ∗ atPos ER (rcvCellB c) 0 ∅ 0
      ∗ reached ER (barCell p) 0 ∗ reached ER (rcvCellA q) 0 ∗ reached ER (rcvCellB q) 0 ∗ reached ER (sndCellA c) 0 ∗ reached ER (sndCellB c) 0
      ∗ dutyTok ER (barCell p) 0 () ∗ dutyTok ER (rcvCellA q) 0 () ∗ dutyTok ER (rcvCellB q) 0 () ∗ dutyTok ER (sndCellA c) 0 () ∗ dutyTok ER (sndCellB c) 0 ())
      ∗ cred (tallyAt (barCell c) () 1) ∗ cred (tallyAt (rcvCellA c) () N) ∗ cred (tallyAt (rcvCellB c) () N) ∗ levAts L lv
      ∗ (((c : Thread nD τ).loc cc0_scratch0) ↦{fullShare} fcv) ∗ (((c : Thread nD τ).loc cc0_scratch1) ↦{fullShare} fcm))
      ∗ owes (c : Thread nD τ) (tallyAt (rcvCellB q) () N + tallyAt (rcvCellA q) () N + tallyAt (barCell p) () 1) W
      ∗ (((c : Thread nD τ).loc cc0_stg0_0) ↦{fullShare} xstg m c)
      ∗ (((c : Thread nD τ).loc cc0_stg1_0) ↦{fullShare} g1)
      ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  subst hc hq
  simp only [cc0_body_eq_skeleton]; unfold cc0_body_skel
  iintro ⟨⟨⟨⟨#HIbar, #HIsA, #HIsB, #HIrA, #HIrB, #HIbarP, #HIrAP, #HIrBP⟩, HatBar, HatSA, HatSB, HatRA, HatRB, #HrBarP, #HrRAP, #HrRBP, #HrSA, #HrSB, HtBarP, HtRAP, HtRBP, HtSA, HtSB⟩,
    HcBar, HcRA, HcRB, #Hlev, Hcv, Hcm⟩, HO, Hx, Hout, Hk⟩
  ihave Hcmh := (cm_halves (peer p) fcm).1 $$ Hcm
  icases Hcmh with ⟨HcmA, HcmB⟩
  unfold cmPtsA cmPtsB
  ihave Hx := (Entails.of_eq (whole_pts (peer p) cc0_stg0_0 _).symm) $$ Hx
  ihave Hout := (Entails.of_eq (whole_pts (peer p) cc0_stg1_0 _).symm) $$ Hout
  ihave Hcv := (Entails.of_eq (whole_pts (peer p) cc0_scratch0 _).symm) $$ Hcv
  have hmwb := mayWait_barG (F := F) (peer p) (peer (peer p))
  have hd1 : (⟨k0_dev1 (peer p), k0_dev1_lt (peer p)⟩ : Dev nD) = p := (dev1_eq (peer p)).trans (peer_peer p)
  have hd2 := dev2_eq (peer p)
  have hd3 := dev3_eq (peer p)
  sl_exec
  -- `conv` now holds the converted block; hold it by halves for the two copies
  ihave Hcv := (whole_pts_named (peer p) cc0_scratch0 _) $$ Hcv
  icases Hcv with ⟨%gcv, %hgcv, Hcv⟩
  have hcvw : gcv = convOf m (peer p) := by
    rw [hgcv]
    have e1 : View.readAt (Elt F) (Memref.whole cc0_stg0_0 : Memref sig .tc _ _ _).view rW.toLoadRect (xstg m (peer p)) = xstg m (peer p) :=
      Memref.readAt_unit_zero (Elt F) cc0_stg0_0 hz _ (xstg m (peer p))
    show (Memref.whole cc0_scratch0 : Memref sig .tc _ _ _).view.writes (Elt F) fcv
      [⟨rW, k0_pay2 (View.readAt (Elt F) (Memref.whole cc0_stg0_0 : Memref sig .tc _ _ _).view rW.toLoadRect (xstg m (peer p)))⟩] = convOf m (peer p)
    rw [e1, View.writes_singleton]
    exact Memref.write_access_unit_zero_univ (Elt F) cc0_scratch0 hz _ fcv _
  subst hcvw
  ihave Hcvh := (cv_halves (peer p) _).1 $$ Hcv
  icases Hcvh with ⟨HcvA, HcvB⟩
  unfold cvPtsA cvPtsB
  -- the copy of the first half into the partner's `comm`
  iapply (wp_sendA m K (peer p) (peer (peer p)) (peer3 p) HatBar_pay1_v _ _) $$ [HcvA HatBar_pay1 HO HtSA HtRAP]
  · isplitr; · iexact HIsA
    isplitr; · iexact HIrAP
    isplitl [HcvA]; · iexact HcvA
    isplitl [HatBar_pay1]; · iexact HatBar_pay1
    isplitl [HO]; · iexact HO
    isplitl [HtSA]; · iexact HtSA
    isplitr; · iexact HrSA
    isplitl [HtRAP]; · iexact HtRAP
    iexact HrRAP
  iintro ⟨HcSA, HO⟩
  sl_exec
  -- the copy of the second half
  iapply (wp_sendB m K (peer p) (peer (peer p)) (peer3 p) HatBar_pay2_v _) $$ [HcvB HatBar_pay2 HO HtSB HtRBP]
  · isplitr; · iexact HIsB
    isplitr; · iexact HIrBP
    isplitl [HcvB]; · iexact HcvB
    isplitl [HatBar_pay2]; · iexact HatBar_pay2
    isplitl [HO]; · iexact HO
    isplitl [HtSB]; · iexact HtSB
    isplitr; · iexact HrSB
    isplitl [HtRBP]; · iexact HtRBP
    iexact HrRBP
  iintro ⟨HcSB, HO⟩
  sl_exec
  -- the four own cells close: their counters at zero are the device's again
  imod (Rounds.cell_close ER (sched m) (Set.mem_univ (K (peer p, 1))) (fun h => h) (R := 0 + 1) (duties_later m (sndCellA (peer p)))) $$ [HatSA] with HzSA
  · isplitr; · iexact HIsA
    iexact HatSA
  imod (Rounds.cell_close ER (sched m) (Set.mem_univ (K (peer p, 2))) (fun h => h) (R := 0 + 1) (duties_later m (sndCellB (peer p)))) $$ [HatSB] with HzSB
  · isplitr; · iexact HIsB
    iexact HatSB
  imod (Rounds.cell_close ER (sched m) (Set.mem_univ (K (peer p, 3))) (fun h => h) (R := 0 + 1) (duties_later m (rcvCellA (peer p)))) $$ [HatRA] with HzRA
  · isplitr; · iexact HIrA
    iexact HatRA
  imod (Rounds.cell_close ER (sched m) (Set.mem_univ (K (peer p, 4))) (fun h => h) (R := 0 + 1) (duties_later m (rcvCellB (peer p)))) $$ [HatRB] with HzRB
  · isplitr; · iexact HIrB
    iexact HatRB
  -- both scratch buffers whole again
  ihave Hcvj := (cv_join (peer p) (convOf m (peer p)) (convOf m (peer p))) $$ [HatSA_pay1 HatSB_pay1]
  · unfold cvPtsA cvPtsB
    isplitl [HatSA_pay1]; · iexact HatSA_pay1
    iexact HatSB_pay1
  ihave Hcmj := (cm_join (peer p) (convOf m (peer (peer p))) (convOf m (peer (peer p)))) $$ [HatRA_pay1 HatRB_pay1]
  · unfold cmPtsA cmPtsB
    isplitl [HatRA_pay1]; · iexact HatRA_pay1
    iexact HatRB_pay1
  ihave Hx := (Entails.of_eq (whole_pts (peer p) cc0_stg0_0 _)) $$ Hx
  ihave Hout := (whole_pts_named (peer p) cc0_stg1_0 _) $$ Hout
  icases Hout with ⟨%gout, %hgout, Hout⟩
  have hout : gout = outAt m (peer p) := hgout.trans (out_eq m (peer p) g1)
  rw [wp_ret]; imodintro
  iapply Hk
  unfold bodyPost Φ₁ Dat.owesAt Pipeline.owesWithin
  rw [show (dats m 0 (peer p)).owed t₀.succ = 0 from rfl]
  isplitl [Hcvj Hcmj HzSA HzSB HzRA HzRB]
  · isplitl [Hcvj Hcmj]
    · isplitl [Hcvj]; · iexact Hcvj
      iexact Hcmj
    isplitl [HzSA]; · iexact HzSA
    isplitl [HzSB]; · iexact HzSB
    isplitl [HzRA]; · iexact HzRA
    iexact HzRB
  isplitl [HO]
  · iexists _
    isplitr
    swap
    · iexact HO
    ipureintro; exact fun _ _ => Or.inl trivial
  isplitl [Hx]
  · iexists _; isplitr; · (ipureintro; rfl)
    iexact Hx
  iexists _; isplitr; · (ipureintro; exact hout)
  iexact Hout

/-- The body on device `c`: the instance where both the barrier unit and the copies go to the partner. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨Hgh, HcBar, HcRA, HcRB, Hlev, ⟨%fcv, Hcv⟩, ⟨%fcm, Hcm⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁ O₂
  iapply (body_at m K (peer c) c (peer c) (peer_peer c).symm rfl Kt W fcv fcm g1)
  isplitl [Hgh HcBar HcRA HcRB Hlev Hcv Hcm]
  · isplitl [Hgh]; · iexact Hgh
    isplitl [HcBar]; · iexact HcBar
    isplitl [HcRA]; · iexact HcRA
    isplitl [HcRB]; · iexact HcRB
    isplitl [Hlev]; · iexact Hlev
    isplitl [Hcv]; · iexact Hcv
    iexact Hcm
  isplitl [HO]; · iexact HO
  isplitl [Hx]; · iexact Hx
  isplitl [Hout]; · iexact Hout
  iexact Hk

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K', Hg⟩, Hrest⟩, Hscr⟩, Ho, Hx, Hout⟩
  iapply (sound_body m K' c fun _ => bodyPost m c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.KernelProof

end
-- ==== Proof.KernelLaunch.lean ====
/-
  The launch of the pairwise exchange-and-add kernel on the four devices, and its run.

  The exchange's five cells per device are funded at launch: the four own (scoped) semaphores and the runtime's
  barrier semaphore at zero become the cells' invariants in ONE step for all devices (a device's barrier cell is
  opened by its partner too). Each device's five duty tokens are dealt to their payers — the barrier's and the two
  receive cells' to the partner, the two send cells' to the device itself. The credit a device finds on its cells at
  launch is what the others owe them: one unit on its barrier cell, a half's credit on each receive cell, all from
  its partner. The run ends with every device's result array at the result's contents and its input unchanged.
-/
import proofs.«900145_g7700000000000146_dist_ar_v7x_xy2x2_y_m256_n256_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout's side facts -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- Each cell's one duty token as minted. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sndCellA c) 0 () ∗ dutyTok ER (sndCellB c) 0 () ∗ dutyTok ER (rcvCellA c) 0 () ∗ dutyTok ER (rcvCellB c) 0 ())

/-- What the launch element deals device `c`. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin5]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The two send and two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sndCellA c) 0 ∗ semVal (sndCellB c) 0 ∗ semVal (rcvCellA c) 0 ∗ semVal (rcvCellB c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HSA, HSB, HRA, HRB⟩, HB⟩
  isplitl [HB]; · iexact HB
  isplitl [HSA]; · iexact HSA
  isplitl [HSB]; · iexact HSB
  isplitl [HRA] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (rcvCellA (peer c)) 0 () ∗ dutyTok ER (rcvCellB (peer c)) 0 () ∗ dutyTok ER (sndCellA c) 0 () ∗ dutyTok ER (sndCellB c) 0 ())
def linear (c : Dev nD) : sProp 𝕄 :=
  iprop((atPos ER (barCell c) 0 ∅ 0 ∗ atPos ER (sndCellA c) 0 ∅ 0 ∗ atPos ER (sndCellB c) 0 ∅ 0 ∗ atPos ER (rcvCellA c) 0 ∅ 0 ∗ atPos ER (rcvCellB c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaSA, HaSB, HaRA, HaRB⟩, HtBP, HtRAP, HtRBP, HtSA, HtSB⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaSA]; · iexact HaSA
  isplitl [HaSB]; · iexact HaSB
  isplitl [HaRA]; · iexact HaRA
  isplitl [HaRB]; · iexact HaRB
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtBP]; · iexact HtBP
  isplitl [HtRAP]; · iexact HtRAP
  isplitl [HtRBP]; · iexact HtRBP
  isplitl [HtSA]; · iexact HtSA
  iexact HtSB

omit [FloatOps F] in
/-- The tokens dealt across each pair: a barrier's and a receive cell's token to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pair (fun c : Dev nD => (dutyTok ER (barCell c) 0 () : sProp 𝕄)),
    bigSep_univ_equiv pair (fun c : Dev nD => (dutyTok ER (rcvCellA c) 0 () : sProp 𝕄)),
    bigSep_univ_equiv pair (fun c : Dev nD => (dutyTok ER (rcvCellB c) 0 () : sProp 𝕄))]
  iintro ⟨H1, H2, H3, H4, H5⟩
  isplitl [H1]; · iexact H1
  isplitl [H4]; · iexact H4
  isplitl [H5]; · iexact H5
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem rcvA_eq_iff {a b : Dev nD} : Iff (rcvCellA a = rcvCellA b) (a = b) :=
  ⟨fun h => Fin.ext (congrArg (fun g : GSem nD τ sig => g.1.1.val) h), fun h => h ▸ rfl⟩
omit [FloatOps F] in
theorem rcvB_eq_iff {a b : Dev nD} : Iff (rcvCellB a = rcvCellB b) (a = b) :=
  ⟨fun h => Fin.ext (congrArg (fun g : GSem nD τ sig => g.1.1.val) h), fun h => h ▸ rfl⟩

omit [FloatOps F] in
theorem eq_peer_of {d c : Dev nD} (h : c = peer d) : d = peer c := by rw [h, peer_peer]

omit [FloatOps F] in
/-- What device `d` owes device `c`'s barrier cell: a unit if it is `c`'s partner. -/
theorem owed_bar (d c : Dev nD) : O₀ d (barCell c) () = if d = peer c then 1 else 0 := by
  unfold O₀ O₁ O₂
  rw [Pi.add_apply, Finsupp.add_apply, Pi.add_apply, Finsupp.add_apply, tallyAt_apply, tallyAt_apply, tallyAt_apply,
    if_neg (fun h : barCell c = rcvCellB (peer d) ∧ () = () => rcvB_ne_bar (congrArg Prod.snd h.1).symm),
    if_neg (fun h : barCell c = rcvCellA (peer d) ∧ () = () => rcvA_ne_bar (congrArg Prod.snd h.1).symm)]
  by_cases h : d = peer c
  · subst h; rw [peer_peer, if_pos ⟨rfl, rfl⟩, if_pos rfl]; try omega
  · rw [if_neg (fun h' : barCell c = barCell (peer d) ∧ () = () => h (eq_peer_of (bar_eq_iff.mp h'.1))), if_neg h]; try omega

omit [FloatOps F] in
theorem owed_rcvA (d c : Dev nD) : O₀ d (rcvCellA c) () = if d = peer c then N else 0 := by
  unfold O₀ O₁ O₂
  rw [Pi.add_apply, Finsupp.add_apply, Pi.add_apply, Finsupp.add_apply, tallyAt_apply, tallyAt_apply, tallyAt_apply,
    if_neg (fun h : rcvCellA c = rcvCellB (peer d) ∧ () = () => rcvA_ne_rcvB (congrArg Prod.snd h.1)),
    if_neg (fun h : rcvCellA c = barCell (peer d) ∧ () = () => rcvA_ne_bar (congrArg Prod.snd h.1))]
  by_cases h : d = peer c
  · subst h; rw [peer_peer, if_pos ⟨rfl, rfl⟩, if_pos rfl]; try omega
  · rw [if_neg (fun h' : rcvCellA c = rcvCellA (peer d) ∧ () = () => h (eq_peer_of (rcvA_eq_iff.mp h'.1))), if_neg h]; try omega

omit [FloatOps F] in
theorem owed_rcvB (d c : Dev nD) : O₀ d (rcvCellB c) () = if d = peer c then N else 0 := by
  unfold O₀ O₁ O₂
  rw [Pi.add_apply, Finsupp.add_apply, Pi.add_apply, Finsupp.add_apply, tallyAt_apply, tallyAt_apply, tallyAt_apply,
    if_neg (fun h : rcvCellB c = rcvCellA (peer d) ∧ () = () => rcvB_ne_rcvA (congrArg Prod.snd h.1)),
    if_neg (fun h : rcvCellB c = barCell (peer d) ∧ () = () => rcvB_ne_bar (congrArg Prod.snd h.1))]
  by_cases h : d = peer c
  · subst h; rw [peer_peer, if_pos ⟨rfl, rfl⟩, if_pos rfl]; try omega
  · rw [if_neg (fun h' : rcvCellB c = rcvCellB (peer d) ∧ () = () => h (eq_peer_of (rcvB_eq_iff.mp h'.1))), if_neg h]; try omega

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]
omit [FloatOps F] in
theorem launch_rcvA (c : Dev nD) :
    tallyOn (rcvCellA c) (launchCredit (Pipeline.owing O₀) 0 (rcvCellA c)) = (tallyAt (rcvCellA c) () N : CellTallies nD τ sig Unit) := by
  unfold tallyAt; refine congrArg _ (Finsupp.ext fun u => ?_); cases u
  rw [Pipeline.launchCredit_owing, Finsupp.single_eq_same, Finset.sum_congr rfl fun d _ => owed_rcvA d c,
    Finset.sum_ite_eq' Finset.univ (peer c) fun _ => N, if_pos (Finset.mem_univ _)]
omit [FloatOps F] in
theorem launch_rcvB (c : Dev nD) :
    tallyOn (rcvCellB c) (launchCredit (Pipeline.owing O₀) 0 (rcvCellB c)) = (tallyAt (rcvCellB c) () N : CellTallies nD τ sig Unit) := by
  unfold tallyAt; refine congrArg _ (Finsupp.ext fun u => ?_); cases u
  rw [Pipeline.launchCredit_owing, Finsupp.single_eq_same, Finset.sum_congr rfl fun d _ => owed_rcvB d c,
    Finset.sum_ite_eq' Finset.univ (peer c) fun _ => N, if_pos (Finset.mem_univ _)]

omit [FloatOps F] in
/-- The credit device `c` finds at launch: its barrier cell's unit and its two receive cells' credit. -/
theorem creds (c : Dev nD) :
    (Pipeline.launchCred O₀ c : sProp 𝕄) ⊢ iprop(cred (tallyAt (barCell c) () 1) ∗ cred (tallyAt (rcvCellA c) () N) ∗ cred (tallyAt (rcvCellB c) () N)) := by
  unfold Pipeline.launchCred
  rw [bigSep_univ_at _ (SemLoc.reg barS), launch_bar,
    BI.bigSep_erase (i := (SemLoc.dma rcvA.sem : SemLoc sig)) (Finset.mem_erase.mpr ⟨rcvA_ne_bar, Finset.mem_univ _⟩), launch_rcvA]
  refine sep_mono_right (sep_mono_right ?_)
  rw [← launch_rcvB]
  exact bigSep_elim (Finset.mem_erase.mpr ⟨rcvB_ne_rcvA, Finset.mem_erase.mpr ⟨rcvB_ne_bar, Finset.mem_univ _⟩⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HA, HB⟩
  imodintro
  unfold start G'
  isplitl
  · isplitl [HG]; · iexact HG
    isplitl [H1]; · iexact H1
    isplitl [HA]; · iexact HA
    isplitl [HB]; · iexact HB
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — the two pairs handshaking on the runtime's barrier semaphore, then exchanging their blocks
    by halves — terminates, and every final state has each device's arrays at the computed contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m c (0 : Fin 2) = m (win0_0.arr.view.loc (c : Thread nD τ)) :=
  (dats (F := F) m 0 c).arrAt_in (0 : Fin 2) rfl _

end Cert.KernelProof

end
-- ==== Proof.KernelRun.lean ====
/-
  The run of the pairwise exchange-and-add kernel with its strongest post: on every device the result array ends
  at the result's contents — on each half of the rows, the device's block plus its partner's converted block —
  and the input array ends as it began. Each frame claim is this run with the value dropped.
-/
import proofs.«900145_g7700000000000146_dist_ar_v7x_xy2x2_y_m256_n256_f32_1_alg».proof.Proof.KernelLaunch

noncomputable section

namespace Cert.KernelProof

open Cert.Kernel Cert.Kernel.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The result array after the run, read through its one block: what the body left at the one point. -/
theorem final_out (c : Dev nD) :
    ((cfg0.win (1 : Fin 2)).blk t₀).view.read (Elt F) ((dats (F := F) m 0 c).arrAt (1 : Fin 2) cfg0.N)
      = (dats (F := F) m 0 c).flushed (1 : Fin 2) t₀ := by
  rw [show cfg0.N = (t₀ : Fin cfg0.N).val + 1 from rfl, (dats (F := F) m 0 c).arrAt_succ (1 : Fin 2) t₀]
  rw [show (cfg0.win (1 : Fin 2)).flush t₀ = true from flush0_1 t₀, if_pos rfl]
  exact View.read_write_univ _ _

/-- The block of a whole window is the array. -/
theorem xstg_eq (c : Dev nD) : xstg m c = m ((c : Thread nD τ).loc main_arg0) := by
  have hz : (fun a => (win0_0.index t₀) a * main_arg0.ty.shape.size a) = fun _ => 0 := funext fun a => by fin_cases a <;> decide
  exact Memref.read_access_unit_zero (Elt F) main_arg0 hz (fun a => by fin_cases a <;> decide) _

/-- The result array after the run holds the result's contents. -/
theorem final_value (c : Dev nD) : (dats (F := F) m 0 c).arrAt (1 : Fin 2) cfg0.N = outAt m c := by
  have ho := final_out (F := F) m c
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-- Every weakly fair execution on the four devices terminates, no fault, each device's result array at the result's
    contents and its input array unchanged. -/
theorem run_named : θ_run defs (onTc (τ := τ) (main (F := F))) ⟨m, fun _ => 0, ρ⟩ (fun r => ∀ c : Dev nD,
    r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c (1 : Fin 2)).trans (final_value m c), (h c (0 : Fin 2)).trans (finalA_x m c)⟩) (run_main m ρ)

end Cert.KernelProof

end
-- ==== Proof.KernelIdealProto.lean ====
/-
  The cross-device protocol of the pairwise exchange-and-add kernel, on the 2 × 2 mesh.

  Device `c` sits at mesh position (c / 2, c % 2) and holds block `c % 2` of the 512 × 256 input. Its partner
  `peer c` is the device with the same first coordinate and the other second coordinate: `peer` swaps 0 ↔ 1 and
  2 ↔ 3, an involution. Each device converts its 256 × 256 block into a scratch buffer `conv`, tells its partner
  it has entered (one unit on the partner's barrier semaphore), waits for the partner's unit, copies the two
  128-row halves of `conv` into the partner's scratch buffer `comm`, and for each half waits for the partner's
  copy to land and stores `x + comm` on those rows.

  Five semaphore cells per device, each with ONE duty in ONE round:
  * the barrier cell: one unit from the partner's signal, which hands over the partner's `comm` buffer as its two
    row-halves (what the two copies into it need);
  * the two send cells: a half's transfer credit from the device's own copy, which hands back its `conv` half;
  * the two receive cells: a half's transfer credit from the PARTNER's copy, which hands over the device's own
    `comm` half holding the partner's converted block on those rows.
  A device owes, from launch, one unit to its partner's barrier cell and a half's credit to each of its partner's
  receive cells. Barrier cells are at level 1, receive cells at level 2, every other cell at 0: a device waits
  on its barrier cell owing only receive cells, and on every other cell owing nothing above it.
-/
import proofs.«900145_g7700000000000146_dist_ar_v7x_xy2x2_y_m256_n256_f32_1_alg».proof.Proof.Gen.KernelIdeal
import proofs.«900145_g7700000000000146_dist_ar_v7x_xy2x2_y_m256_n256_f32_1_alg».proof.Proof.Gen.KernelIdeal.Skeleton
import proofs.«900145_g7700000000000146_dist_ar_v7x_xy2x2_y_m256_n256_f32_1_alg».proof.Proof.Gen.KernelIdeal.Launch
import proofs.«900145_g7700000000000146_dist_ar_v7x_xy2x2_y_m256_n256_f32_1_alg».proof.Proof.Gen.KernelIdeal.Points
import proofs.«900145_g7700000000000146_dist_ar_v7x_xy2x2_y_m256_n256_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def ini : MemSt nD τ sig (Elt F) := ⟨m, fun _ => 0, ρ⟩

/-! ## The partner -/

/-- Same first mesh coordinate, the other second coordinate. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- The kernel's three device chains (the signal's, the two copies') all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pair : Dev nD ≃ Dev nD := ⟨peer, peer, peer_peer, peer_peer⟩

/-! ## The buffers, their halves, the cells -/

abbrev xM : Memref sig .tc .vmem S256x256 .f32 := Memref.whole cc0_stg0_0
abbrev oM : Memref sig .tc .vmem S256x256 .f32 := Memref.whole cc0_stg1_0
abbrev cvM : Memref sig .tc .vmem S256x256 .bf16 := Memref.whole cc0_scratch0
abbrev cmM : Memref sig .tc .vmem S256x256 .bf16 := Memref.whole cc0_scratch1

/-- Rows 0–127, rows 128–255, and all rows. -/
abbrev rA : Rect S256x256 := Rect.unit (s := S256x256) ![0, 0] S128x256.size inb_S256x256_S128x256_0_0
abbrev rB : Rect S256x256 := Rect.unit (s := S256x256) ![128, 0] S128x256.size inb_S256x256_S128x256_128_0
abbrev rW : Rect S256x256 := Rect.unit (s := S256x256) ![0, 0] S256x256.size inb_S256x256_S256x256_0_0

abbrev cvA : Memref sig .tc .vmem S128x256 .bf16 := cvM.slice rA (fun _ => rfl)
abbrev cvB : Memref sig .tc .vmem S128x256 .bf16 := cvM.slice rB (fun _ => rfl)
abbrev cmA : Memref sig .tc .vmem S128x256 .bf16 := cmM.slice rA (fun _ => rfl)
abbrev cmB : Memref sig .tc .vmem S128x256 .bf16 := cmM.slice rB (fun _ => rfl)

abbrev barS : Sem sig := (SemArray.scalar (sig.barrier 0 rfl) : Sems sig S_).sem
abbrev sndA : DmaSems sig S_ := (cc0_scratch2.slice (Rect.unit (s := S2) ![0] S1.size inb_S2_S1_0)).squeeze S_ squeezes_S1_S_
abbrev sndB : DmaSems sig S_ := (cc0_scratch2.slice (Rect.unit (s := S2) ![1] S1.size inb_S2_S1_1)).squeeze S_ squeezes_S1_S_
abbrev rcvA : DmaSems sig S_ := (cc0_scratch3.slice (Rect.unit (s := S2) ![0] S1.size inb_S2_S1_0)).squeeze S_ squeezes_S1_S_
abbrev rcvB : DmaSems sig S_ := (cc0_scratch3.slice (Rect.unit (s := S2) ![1] S1.size inb_S2_S1_1)).squeeze S_ squeezes_S1_S_

abbrev barCell (c : Dev nD) : GSem nD τ sig := ((c : Thread nD τ), .reg barS)
abbrev sndCellA (c : Dev nD) : GSem nD τ sig := ((c : Thread nD τ), .dma sndA.sem)
abbrev sndCellB (c : Dev nD) : GSem nD τ sig := ((c : Thread nD τ), .dma sndB.sem)
abbrev rcvCellA (c : Dev nD) : GSem nD τ sig := ((c : Thread nD τ), .dma rcvA.sem)
abbrev rcvCellB (c : Dev nD) : GSem nD τ sig := ((c : Thread nD τ), .dma rcvB.sem)

/-- The kernel's own (scoped) semaphores: send A, send B, receive A, receive B; -/
abbrev osem : Fin 4 → SemLoc sig := fun | 0 => .dma sndA.sem | 1 => .dma sndB.sem | 2 => .dma rcvA.sem | 3 => .dma rcvB.sem
/-- all five of the exchange's: the barrier's first. -/
abbrev csem : Fin 5 → SemLoc sig := fun | 0 => .reg barS | 1 => .dma sndA.sem | 2 => .dma sndB.sem | 3 => .dma rcvA.sem | 4 => .dma rcvB.sem
abbrev kcell (ck : Dev nD × Fin 5) : GSem nD τ sig := ((ck.1 : Thread nD τ), csem ck.2)

/-- A half's transfer credit. -/
abbrev N : ℕ := (cmA : Memref sig .tc .vmem S128x256 .bf16).view.dmaCredit
theorem N_pos : 0 < N := View.dmaCredit_pos _ (by decide)
theorem N_B : (cmB : Memref sig .tc .vmem S128x256 .bf16).view.dmaCredit = N := rfl

theorem sndA_ne_bar : (SemLoc.dma sndA.sem : SemLoc sig) ≠ .reg barS := fun h => by cases h
theorem sndB_ne_bar : (SemLoc.dma sndB.sem : SemLoc sig) ≠ .reg barS := fun h => by cases h
theorem rcvA_ne_bar : (SemLoc.dma rcvA.sem : SemLoc sig) ≠ .reg barS := fun h => by cases h
theorem rcvB_ne_bar : (SemLoc.dma rcvB.sem : SemLoc sig) ≠ .reg barS := fun h => by cases h
theorem sndA_ne_sndB : (SemLoc.dma sndA.sem : SemLoc sig) ≠ .dma sndB.sem := by decide
theorem sndA_ne_rcvA : (SemLoc.dma sndA.sem : SemLoc sig) ≠ .dma rcvA.sem := by decide
theorem sndA_ne_rcvB : (SemLoc.dma sndA.sem : SemLoc sig) ≠ .dma rcvB.sem := by decide
theorem sndB_ne_rcvA : (SemLoc.dma sndB.sem : SemLoc sig) ≠ .dma rcvA.sem := by decide
theorem sndB_ne_rcvB : (SemLoc.dma sndB.sem : SemLoc sig) ≠ .dma rcvB.sem := by decide
theorem rcvA_ne_rcvB : (SemLoc.dma rcvA.sem : SemLoc sig) ≠ .dma rcvB.sem := by decide
theorem rcvB_ne_rcvA : (SemLoc.dma rcvB.sem : SemLoc sig) ≠ .dma rcvA.sem := by decide

/-! ## The two halves tile the buffer -/

theorem hz : (![0, 0] : Fin 2 → Nat) = fun _ => 0 := funext fun a => by fin_cases a <;> rfl

theorem halves_disjoint : Disjoint rA.set rB.set := Rect.unit_disjoint (0 : Fin 2) (Or.inl (by decide))

theorem halves_cover (y : S256x256.Idx) : y ∈ rA.set ∨ y ∈ rB.set := by
  have h0 : (y 0 : ℕ) < 256 := (y 0).isLt
  have h1 : (y 1 : ℕ) < 256 := (y 1).isLt
  by_cases h : (y 0 : ℕ) < 128
  · refine Or.inl (Rect.mem_set_unit.mpr (Fin.forall_fin_two.mpr ⟨⟨Nat.zero_le _, ?_⟩, ⟨Nat.zero_le _, ?_⟩⟩))
    · show (y 0 : ℕ) < 0 + 128; omega
    · show (y 1 : ℕ) < 0 + 256; omega
  · refine Or.inr (Rect.mem_set_unit.mpr (Fin.forall_fin_two.mpr ⟨⟨?_, ?_⟩, ⟨Nat.zero_le _, ?_⟩⟩))
    · show 128 ≤ (y 0 : ℕ); omega
    · show (y 0 : ℕ) < 128 + 128; omega
    · show (y 1 : ℕ) < 0 + 256; omega

theorem halves_univ : rA.set ∪ rB.set = (Finset.univ : Finset S256x256.Idx) :=
  Finset.eq_univ_iff_forall.mpr fun y => Finset.mem_union.mpr (halves_cover y)

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))

/-- The block converted to the narrow format: what `conv` holds from the first store on. -/
def convOf (c : Dev nD) : (cc0_scratch0 : Ref sig .tc).ty.Contents (Elt F) := k0_pay2 (xstg m c)

/-- The result on device `c`: on each half of the rows, its block plus the partner's converted block widened back. -/
def outAt (c : Dev nD) : (cc0_stg1_0 : Ref sig .tc).ty.Contents (Elt F) :=
  View.canon [⟨rB, k0_pay1 (View.ld (xstg m c) rB) (View.ld (convOf m (peer c)) rB)⟩,
    ⟨rA, k0_pay3 (View.ld (xstg m c) rA) (View.ld (convOf m (peer c)) rA)⟩]

/-! ## The scratch buffers, whole and by halves -/

def cvPtsA (c : Dev nD) (f : Buf (Elt F) (cvA.view.loc (c : Thread nD τ))) : sProp 𝕄 := cvA.view.loc (c : Thread nD τ) ↦[cvA.view.set]{fullShare} f
def cvPtsB (c : Dev nD) (f : Buf (Elt F) (cvB.view.loc (c : Thread nD τ))) : sProp 𝕄 := cvB.view.loc (c : Thread nD τ) ↦[cvB.view.set]{fullShare} f
def cmPtsA (c : Dev nD) (f : Buf (Elt F) (cmA.view.loc (c : Thread nD τ))) : sProp 𝕄 := cmA.view.loc (c : Thread nD τ) ↦[cmA.view.set]{fullShare} f
def cmPtsB (c : Dev nD) (f : Buf (Elt F) (cmB.view.loc (c : Thread nD τ))) : sProp 𝕄 := cmB.view.loc (c : Thread nD τ) ↦[cmB.view.set]{fullShare} f
def xPts (c : Dev nD) : sProp 𝕄 := ((c : Thread nD τ).loc cc0_stg0_0) ↦{fullShare} xstg m c

omit [FloatOps F] in
instance cvPtsA_storable (c : Dev nD) (f) : BI.Storable (upEmb : UEmb _ 𝕄) (cvPtsA (F := F) c f) := by unfold cvPtsA; infer_instance
omit [FloatOps F] in
instance cvPtsB_storable (c : Dev nD) (f) : BI.Storable (upEmb : UEmb _ 𝕄) (cvPtsB (F := F) c f) := by unfold cvPtsB; infer_instance
omit [FloatOps F] in
instance cmPtsA_storable (c : Dev nD) (f) : BI.Storable (upEmb : UEmb _ 𝕄) (cmPtsA (F := F) c f) := by unfold cmPtsA; infer_instance
omit [FloatOps F] in
instance cmPtsB_storable (c : Dev nD) (f) : BI.Storable (upEmb : UEmb _ 𝕄) (cmPtsB (F := F) c f) := by unfold cmPtsB; infer_instance

omit [FloatOps F] in
theorem cv_setA : cvA.view.set = rA.set := View.set_slice_whole cc0_scratch0 rA
omit [FloatOps F] in
theorem cv_setB : cvB.view.set = rB.set := View.set_slice_whole cc0_scratch0 rB
omit [FloatOps F] in
theorem cm_setA : cmA.view.set = rA.set := View.set_slice_whole cc0_scratch1 rA
omit [FloatOps F] in
theorem cm_setB : cmB.view.set = rB.set := View.set_slice_whole cc0_scratch1 rB

omit [FloatOps F] in
/-- A scratch buffer held whole is its two row-halves held side by side. -/
theorem cv_halves (c : Dev nD) (f : Buf (Elt F) ((c : Thread nD τ).loc cc0_scratch0)) :
    ((((c : Thread nD τ).loc cc0_scratch0) ↦{fullShare} f : sProp 𝕄)) ⊣⊢ iprop(cvPtsA c f ∗ cvPtsB c f) := by
  unfold cvPtsA cvPtsB
  rw [cv_setA, cv_setB]
  have h := pointsTo_union (Ix := Unit) (Name := ℕ) (U := UU) (Lvl := ℕ) (Val := Elt F) (ℓ := (c : Thread nD τ).loc cc0_scratch0) (q := fullShare) (f := f) halves_disjoint
  rw [halves_univ] at h
  exact h
omit [FloatOps F] in
theorem cm_halves (c : Dev nD) (f : Buf (Elt F) ((c : Thread nD τ).loc cc0_scratch1)) :
    ((((c : Thread nD τ).loc cc0_scratch1) ↦{fullShare} f : sProp 𝕄)) ⊣⊢ iprop(cmPtsA c f ∗ cmPtsB c f) := by
  unfold cmPtsA cmPtsB
  rw [cm_setA, cm_setB]
  have h := pointsTo_union (Ix := Unit) (Name := ℕ) (U := UU) (Lvl := ℕ) (Val := Elt F) (ℓ := (c : Thread nD τ).loc cc0_scratch1) (q := fullShare) (f := f) halves_disjoint
  rw [halves_univ] at h
  exact h

omit [FloatOps F] in
/-- Two halves held at different contents are the whole buffer at some contents. -/
theorem cv_join (c : Dev nD) (f g : Buf (Elt F) ((c : Thread nD τ).loc cc0_scratch0)) :
    iprop(cvPtsA c f ∗ cvPtsB c g) ⊢ (iprop(∃ h, ((c : Thread nD τ).loc cc0_scratch0) ↦{fullShare} h) : sProp 𝕄) := by
  unfold cvPtsA cvPtsB
  rw [cv_setA, cv_setB]
  refine (pointsTo_join (Ix := Unit) (Name := ℕ) (U := UU) (Lvl := ℕ) (Val := Elt F) (ℓ := (c : Thread nD τ).loc cc0_scratch0) (q := fullShare) halves_disjoint).trans ?_
  rw [halves_univ]
  iintro H; iexists _; iexact H
omit [FloatOps F] in
theorem cm_join (c : Dev nD) (f g : Buf (Elt F) ((c : Thread nD τ).loc cc0_scratch1)) :
    iprop(cmPtsA c f ∗ cmPtsB c g) ⊢ (iprop(∃ h, ((c : Thread nD τ).loc cc0_scratch1) ↦{fullShare} h) : sProp 𝕄) := by
  unfold cmPtsA cmPtsB
  rw [cm_setA, cm_setB]
  refine (pointsTo_join (Ix := Unit) (Name := ℕ) (U := UU) (Lvl := ℕ) (Val := Elt F) (ℓ := (c : Thread nD τ).loc cc0_scratch1) (q := fullShare) halves_disjoint).trans ?_
  rw [halves_univ]
  iintro H; iexists _; iexact H

omit [FloatOps F] in
/-- What a copy of a half leaves on the destination's rows is the source's contents there, whatever was there before. -/
theorem landedA (c c' : Dev nD) (fd : Buf (Elt F) (cmA.view.loc (c : Thread nD τ))) (fs : Buf (Elt F) (cvA.view.loc (c' : Thread nD τ))) :
    (cmA.view.loc (c : Thread nD τ) ↦[cmA.view.set]{fullShare} (cmA.view.write (Elt F) fd (cvA.view.read (Elt F) fs) Finset.univ) : sProp 𝕄)
      = cmPtsA c fs := by
  unfold cmPtsA
  refine pointsTo_congr fun i hi => ?_
  obtain ⟨y, rfl⟩ := View.exists_emb_of_mem_set _ hi
  rw [View.write_emb_of_mem _ _ (Finset.mem_univ y)]
  rfl
omit [FloatOps F] in
theorem landedB (c c' : Dev nD) (fd : Buf (Elt F) (cmB.view.loc (c : Thread nD τ))) (fs : Buf (Elt F) (cvB.view.loc (c' : Thread nD τ))) :
    (cmB.view.loc (c : Thread nD τ) ↦[cmB.view.set]{fullShare} (cmB.view.write (Elt F) fd (cvB.view.read (Elt F) fs) Finset.univ) : sProp 𝕄)
      = cmPtsB c fs := by
  unfold cmPtsB
  refine pointsTo_congr fun i hi => ?_
  obtain ⟨y, rfl⟩ := View.exists_emb_of_mem_set _ hi
  rw [View.write_emb_of_mem _ _ (Finset.mem_univ y)]
  rfl

/-! ## The schedule -/

/-- The partner's signal hands over the partner's `comm` buffer, by halves. -/
def barPay (c : Dev nD) : sProp 𝕄 := iprop((∃ f, cmPtsA (peer c) f) ∗ (∃ f, cmPtsB (peer c) f))
/-- The partner's copy of a half hands over this device's `comm` half at the partner's converted block. -/
def rcvPayA (c : Dev nD) : sProp 𝕄 := cmPtsA c (convOf m (peer c))
def rcvPayB (c : Dev nD) : sProp 𝕄 := cmPtsB c (convOf m (peer c))
/-- The device's own copy of a half hands back its `conv` half. -/
def sndPayA (c : Dev nD) : sProp 𝕄 := cvPtsA c (convOf m c)
def sndPayB (c : Dev nD) : sProp 𝕄 := cvPtsB c (convOf m c)

/-- One round, round 0, one duty per cell: a barrier cell's of one unit, a send or receive cell's of a half's credit. -/
def sched : Rounds.Schedule (GSem nD τ sig) Unit 𝕄 where
  duties _ r := if r = 0 then {()} else ∅
  unitless _ := False
  amount g _ _ := if g.2 = .reg barS then 1 else N
  payload g _ _ :=
    if g.2 = .reg barS then barPay g.1.1
    else if g.2 = .dma rcvA.sem then rcvPayA m g.1.1
    else if g.2 = .dma rcvB.sem then rcvPayB m g.1.1
    else if g.2 = .dma sndA.sem then sndPayA m g.1.1
    else if g.2 = .dma sndB.sem then sndPayB m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma rcvA.sem then rcvPayA m g.1.1
    else if g.2 = .dma rcvB.sem then rcvPayB m g.1.1
    else if g.2 = .dma sndA.sem then sndPayA m g.1.1
    else if g.2 = .dma sndB.sem then sndPayB m g.1.1
    else iprop(emp))
  unfold barPay rcvPayA rcvPayB sndPayA sndPayB
  (repeat' split) <;> infer_instance

section Sched
variable (c : Dev nD)

theorem duties_zero (g : GSem nD τ sig) : (sched (F := F) m).duties g 0 = {()} := by dsimp only [sched]; exact if_pos rfl
theorem duties_later (g : GSem nD τ sig) : ∀ r, 1 ≤ r → (sched (F := F) m).duties g r = ∅ :=
  fun r hr => by dsimp only [sched]; rw [if_neg fun h => by omega]
theorem mem_duties (g : GSem nD τ sig) : () ∈ (sched (F := F) m).duties g 0 := by rw [duties_zero]; exact Finset.mem_singleton_self _

theorem amount_bar (d : Unit) : (sched (F := F) m).amount (barCell c) 0 d = 1 := by dsimp only [sched]; exact if_pos rfl
theorem amount_sndA (d : Unit) : (sched (F := F) m).amount (sndCellA c) 0 d = N := by dsimp only [sched]; exact if_neg sndA_ne_bar
theorem amount_sndB (d : Unit) : (sched (F := F) m).amount (sndCellB c) 0 d = N := by dsimp only [sched]; exact if_neg sndB_ne_bar
theorem amount_rcvA (d : Unit) : (sched (F := F) m).amount (rcvCellA c) 0 d = N := by dsimp only [sched]; exact if_neg rcvA_ne_bar
theorem amount_rcvB (d : Unit) : (sched (F := F) m).amount (rcvCellB c) 0 d = N := by dsimp only [sched]; exact if_neg rcvB_ne_bar

theorem expect_bar : (sched (F := F) m).expect (barCell c) 0 = 1 := by
  unfold Schedule.expect Schedule.amountOf; rw [duties_zero, Finset.sum_singleton, amount_bar]
theorem expect_sndA : (sched (F := F) m).expect (sndCellA c) 0 = N := by
  unfold Schedule.expect Schedule.amountOf; rw [duties_zero, Finset.sum_singleton, amount_sndA]
theorem expect_sndB : (sched (F := F) m).expect (sndCellB c) 0 = N := by
  unfold Schedule.expect Schedule.amountOf; rw [duties_zero, Finset.sum_singleton, amount_sndB]
theorem expect_rcvA : (sched (F := F) m).expect (rcvCellA c) 0 = N := by
  unfold Schedule.expect Schedule.amountOf; rw [duties_zero, Finset.sum_singleton, amount_rcvA]
theorem expect_rcvB : (sched (F := F) m).expect (rcvCellB c) 0 = N := by
  unfold Schedule.expect Schedule.amountOf; rw [duties_zero, Finset.sum_singleton, amount_rcvB]

theorem payload_bar (d : Unit) : (sched (F := F) m).payload (barCell c) 0 d = barPay c := by dsimp only [sched]; rw [if_pos rfl]
theorem payload_rcvA (d : Unit) : (sched (F := F) m).payload (rcvCellA c) 0 d = rcvPayA m c := by
  dsimp only [sched]; rw [if_neg rcvA_ne_bar, if_pos rfl]
theorem payload_rcvB (d : Unit) : (sched (F := F) m).payload (rcvCellB c) 0 d = rcvPayB m c := by
  dsimp only [sched]; rw [if_neg rcvB_ne_bar, if_neg rcvB_ne_rcvA, if_pos rfl]
theorem payload_sndA (d : Unit) : (sched (F := F) m).payload (sndCellA c) 0 d = sndPayA m c := by
  dsimp only [sched]; rw [if_neg sndA_ne_bar, if_neg sndA_ne_rcvA, if_neg sndA_ne_rcvB, if_pos rfl]
theorem payload_sndB (d : Unit) : (sched (F := F) m).payload (sndCellB c) 0 d = sndPayB m c := by
  dsimp only [sched]; rw [if_neg sndB_ne_bar, if_neg sndB_ne_rcvA, if_neg sndB_ne_rcvB, if_neg sndA_ne_sndB.symm, if_pos rfl]

/-- The rest of a cell's round with no duty taken: its one payload. -/
theorem rest_bar : bigSep ((sched (F := F) m).duties (barCell c) 0 \ ∅) (fun d => (sched (F := F) m).payload (barCell c) 0 d) = barPay c := by
  rw [Finset.sdiff_empty, duties_zero, bigSep_singleton, payload_bar]
theorem rest_rcvA : bigSep ((sched (F := F) m).duties (rcvCellA c) 0 \ ∅) (fun d => (sched (F := F) m).payload (rcvCellA c) 0 d) = rcvPayA m c := by
  rw [Finset.sdiff_empty, duties_zero, bigSep_singleton, payload_rcvA]
theorem rest_rcvB : bigSep ((sched (F := F) m).duties (rcvCellB c) 0 \ ∅) (fun d => (sched (F := F) m).payload (rcvCellB c) 0 d) = rcvPayB m c := by
  rw [Finset.sdiff_empty, duties_zero, bigSep_singleton, payload_rcvB]
theorem rest_sndA : bigSep ((sched (F := F) m).duties (sndCellA c) 0 \ ∅) (fun d => (sched (F := F) m).payload (sndCellA c) 0 d) = sndPayA m c := by
  rw [Finset.sdiff_empty, duties_zero, bigSep_singleton, payload_sndA]
theorem rest_sndB : bigSep ((sched (F := F) m).duties (sndCellB c) 0 \ ∅) (fun d => (sched (F := F) m).payload (sndCellB c) 0 d) = sndPayB m c := by
  rw [Finset.sdiff_empty, duties_zero, bigSep_singleton, payload_sndB]

end Sched

/-! ## What each device owes at launch; the levels -/

/-- Device `c` owes its partner's two receive cells a half's credit each and its partner's barrier cell one unit —
    summed so that the signal peels the last summand, the first copy the middle one, the second copy the first. -/
def O₂ (c : Dev nD) : CellTallies nD τ sig Unit := tallyAt (rcvCellB (peer c)) () N
def O₁ (c : Dev nD) : CellTallies nD τ sig Unit := O₂ c + tallyAt (rcvCellA (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma rcvA.sem ∨ g.2 = .dma rcvB.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rcvA (c : Dev nD) (u : Unit) : lv (rcvCellA c) u = 2 := by dsimp only [lv]; rw [if_neg rcvA_ne_bar, if_pos (Or.inl rfl)]
theorem lv_rcvB (c : Dev nD) (u : Unit) : lv (rcvCellB c) u = 2 := by dsimp only [lv]; rw [if_neg rcvB_ne_bar, if_pos (Or.inr rfl)]

theorem O₁_pos {c : Dev nD} {g : GSem nD τ sig} {u : Unit} (h : 0 < O₁ c g u) : g = rcvCellB (peer c) ∨ g = rcvCellA (peer c) := by
  unfold O₁ O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvCellB (peer c) ∨ g = rcvCellA (peer c) ∨ g = barCell (peer c) := by
  unfold O₀ O₁ O₂ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

/-- The pipeline's own staging waits (level 0) sit below everything a device owes. -/
theorem mayWait_stage (c : Dev nD) (q : DmaSem sig) (hq : SemLoc.dma q ≠ .dma rcvA.sem ∧ SemLoc.dma q ≠ .dma rcvB.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg (fun h => h.elim hq.1 hq.2)])
      (fun g u hg => by
        rcases O₀_pos hg with rfl | rfl | rfl
        · rw [lv_rcvB]; decide
        · rw [lv_rcvA]; decide
        · rw [lv_bar]; decide)
  · rw [MayWait_zero]; iintro -; iempintro

/-- At its barrier wait a device owes its partner's two receive credits only: receive cells, above barrier cells. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_rcvB]; decide
      · rw [lv_rcvA]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, and its
    partner's barrier and receive cells (its signal, its two copies). -/
def invs (K : Dev nD × Fin 5 → ℕ) (c : Dev nD) : sProp 𝕄 :=
  iprop(cellInv ER (sched m) (K (c, 0)) (barCell c) ∗ cellInv ER (sched m) (K (c, 1)) (sndCellA c) ∗ cellInv ER (sched m) (K (c, 2)) (sndCellB c)
    ∗ cellInv ER (sched m) (K (c, 3)) (rcvCellA c) ∗ cellInv ER (sched m) (K (c, 4)) (rcvCellB c)
    ∗ cellInv ER (sched m) (K (peer c, 0)) (barCell (peer c)) ∗ cellInv ER (sched m) (K (peer c, 3)) (rcvCellA (peer c))
    ∗ cellInv ER (sched m) (K (peer c, 4)) (rcvCellB (peer c)))

instance invs_persistent (K : Dev nD × Fin 5 → ℕ) (c : Dev nD) : BI.Persistent (invs m K c) := by unfold invs; infer_instance

/-- The exchange's ghost state device `c` starts from: the invariants; its positions at round 0 of its five cells; that
    round 0 of each cell it pays is reached; the five duty tokens it pays with — its partner's barrier and receive
    duties, its own two send duties. -/
def ghost (K : Dev nD × Fin 5 → ℕ) (c : Dev nD) : sProp 𝕄 :=
  iprop(invs m K c
    ∗ atPos ER (barCell c) 0 ∅ 0 ∗ atPos ER (sndCellA c) 0 ∅ 0 ∗ atPos ER (sndCellB c) 0 ∅ 0 ∗ atPos ER (rcvCellA c) 0 ∅ 0 ∗ atPos ER (rcvCellB c) 0 ∅ 0
    ∗ reached ER (barCell (peer c)) 0 ∗ reached ER (rcvCellA (peer c)) 0 ∗ reached ER (rcvCellB (peer c)) 0 ∗ reached ER (sndCellA c) 0 ∗ reached ER (sndCellB c) 0
    ∗ dutyTok ER (barCell (peer c)) 0 () ∗ dutyTok ER (rcvCellA (peer c)) 0 () ∗ dutyTok ER (rcvCellB (peer c)) 0 () ∗ dutyTok ER (sndCellA c) 0 () ∗ dutyTok ER (sndCellB c) 0 ())

/-- What device `c`'s body starts from: that at some names, the credit of its barrier cell and of its two receive cells,
    and the level facts. -/
def start (c : Dev nD) : sProp 𝕄 :=
  iprop((∃ K, ghost m K c) ∗ cred (tallyAt (barCell c) () 1) ∗ cred (tallyAt (rcvCellA c) () N) ∗ cred (tallyAt (rcvCellB c) () N) ∗ levAts L lv)

abbrev scratchRest (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratchRest c)
/-- After the point: both scratch buffers whole again, the four own cells at zero, closed (the barrier cell is the
    runtime's: nothing to hand back). -/
def Φ₁ (c : Dev nD) : sProp 𝕄 :=
  iprop(scratchRest c ∗ semVal (sndCellA c) 0 ∗ semVal (sndCellB c) 0 ∗ semVal (rcvCellA c) 0 ∗ semVal (rcvCellB c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdealProof

end
-- ==== Proof.KernelIdealBody.lean ====
/-
  One device's body of the pairwise exchange-and-add kernel, run from the exchange's ghost state.

  In program order: the unit to the partner's barrier cell (handing over this device's `comm` buffer by halves), the
  block converted into `conv`, the wait for the partner's unit (which brings the partner's `comm` halves), the two
  copies of `conv`'s halves into them, and per half the wait for the partner's copy and the store of `x + comm` on
  those rows; last the two waits that bring `conv`'s halves back.
-/
import proofs.«900145_g7700000000000146_dist_ar_v7x_xy2x2_y_m256_n256_f32_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

section Body

variable (K : Dev nD × Fin 5 → ℕ)

def bodyPre (c : Dev nD) : sProp 𝕄 :=
  iprop((ghost m K c ∗ cred (tallyAt (barCell c) () 1) ∗ cred (tallyAt (rcvCellA c) () N) ∗ cred (tallyAt (rcvCellB c) () N) ∗ levAts L lv ∗ scratchRest c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

omit [FloatOps F] in
theorem whole_pts (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  have h : (Memref.whole b : Memref sig .tc _ _ _).view.set = Finset.univ := View.set_whole _
  rw [h]

omit [FloatOps F] in
/-- A buffer held through its whole view, its contents named. -/
theorem whole_pts_named (c : Dev nD) (b : Ref sig .tc) (f : Buf (Elt F) ((c : Thread nD τ).loc b)) :
    (((Memref.whole b : Memref sig .tc _ _ _).view.loc (c : Thread nD τ)) ↦[(Memref.whole b : Memref sig .tc _ _ _).view.set]{fullShare} f : sProp 𝕄)
      ⊢ iprop(∃ g : Buf (Elt F) ((c : Thread nD τ).loc b), ⌜g = f⌝ ∗ (((c : Thread nD τ).loc b) ↦{fullShare} g)) := by
  rw [whole_pts]
  iintro H; iexists f; isplitr; · ipureintro; rfl
  iexact H

set_option maxHeartbeats 1000000 in
/-- The two stores cover the output buffer, so what they leave is the result, whatever the buffer held. -/
theorem out_eq (c : Dev nD) (g1 : Buf (Elt F) ((c : Thread nD τ).loc cc0_stg1_0)) :
    (Memref.whole cc0_stg1_0 : Memref sig .tc _ _ _).view.writes (Elt F) g1
      [⟨rB, k0_pay1 (View.readAt (Elt F) (Memref.whole cc0_stg0_0 : Memref sig .tc _ _ _).view rB.toLoadRect (xstg m c))
          (View.readAt (Elt F) (Memref.whole cc0_scratch1 : Memref sig .tc _ _ _).view rB.toLoadRect (convOf m (peer c)))⟩,
        ⟨rA, k0_pay3 (View.readAt (Elt F) (Memref.whole cc0_stg0_0 : Memref sig .tc _ _ _).view rA.toLoadRect (xstg m c))
          (View.readAt (Elt F) (Memref.whole cc0_scratch1 : Memref sig .tc _ _ _).view rA.toLoadRect (convOf m (peer c)))⟩] = outAt m c := by
  have hcov : ∀ (L : List (View.Piece (Elt F) S256x256 .f32)) (pB pA : _), L = [⟨rB, pB⟩, ⟨rA, pA⟩] → ∀ y, ∃ pc ∈ L, y ∈ pc.1.set := by
    rintro L pB pA rfl y
    exact (halves_cover y).elim
      (fun h => ⟨_, List.mem_cons_of_mem _ (List.mem_singleton_self _), h⟩)
      (fun h => ⟨_, List.mem_cons_self, h⟩)
  have h := View.read_writes_eq_canon (View.whole cc0_stg1_0) g1
    [⟨rB, k0_pay1 (View.ld (xstg m c) rB) (View.ld (convOf m (peer c)) rB)⟩,
      ⟨rA, k0_pay3 (View.ld (xstg m c) rA) (View.ld (convOf m (peer c)) rA)⟩] (hcov _ _ _ rfl)
  exact h

/-- The schedule's payloads down to the buffers they hand over. -/
theorem pl_bar (c : Dev nD) (d : Unit) : (sched (F := F) m).payload (barCell c) 0 d
    = iprop((∃ f, cmA.view.loc (peer c : Thread nD τ) ↦[cmA.view.set]{fullShare} f) ∗ (∃ f, cmB.view.loc (peer c : Thread nD τ) ↦[cmB.view.set]{fullShare} f)) := by
  rw [payload_bar]; rfl
theorem pl_rcvA (c : Dev nD) (d : Unit) : (sched (F := F) m).payload (rcvCellA c) 0 d
    = (cmA.view.loc (c : Thread nD τ) ↦[cmA.view.set]{fullShare} convOf m (peer c)) := by rw [payload_rcvA]; rfl
theorem pl_rcvB (c : Dev nD) (d : Unit) : (sched (F := F) m).payload (rcvCellB c) 0 d
    = (cmB.view.loc (c : Thread nD τ) ↦[cmB.view.set]{fullShare} convOf m (peer c)) := by rw [payload_rcvB]; rfl
theorem pl_sndA (c : Dev nD) (d : Unit) : (sched (F := F) m).payload (sndCellA c) 0 d
    = (cvA.view.loc (c : Thread nD τ) ↦[cvA.view.set]{fullShare} convOf m c) := by rw [payload_sndA]; rfl
theorem pl_sndB (c : Dev nD) (d : Unit) : (sched (F := F) m).payload (sndCellB c) 0 d
    = (cvB.view.loc (c : Thread nD τ) ↦[cvB.view.set]{fullShare} convOf m c) := by rw [payload_sndB]; rfl

theorem peer3 (p : Dev nD) : peer (peer (peer p)) = peer p := by rw [peer_peer]

attribute [local sl_rounds] duties_zero amount_bar amount_sndA amount_sndB amount_rcvA amount_rcvB
  pl_bar pl_rcvA pl_rcvB pl_sndA pl_sndB peer3

/-- At its barrier wait a device owes two receive credits only, whoever's: receive cells, above barrier cells. -/
theorem mayWait_barG (c q : Dev nD) :
    (levAts L lv : sProp 𝕄) ⊢ MayWait (c : Thread nD τ) (.reg barS) () (tallyAt (rcvCellB q) () N + tallyAt (rcvCellA q) () N) := by
  have hpos : ∀ {g : GSem nD τ sig} {u : Unit}, 0 < (tallyAt (rcvCellB q) () N + tallyAt (rcvCellA q) () N : CellTallies nD τ sig Unit) g u → g = rcvCellB q ∨ g = rcvCellA q := by
    intro g u h
    rw [Pi.add_apply, Finsupp.add_apply, tallyAt_apply, tallyAt_apply] at h
    by_contra hn
    rw [not_or] at hn
    rw [if_neg (fun h' => hn.1 h'.1), if_neg (fun h' => hn.2 h'.1)] at h
    exact Nat.lt_irrefl 0 h
  exact MayOwe.of_cut (L := L) (lev := lv) 1 (fun p hp => by rw [Finset.mem_singleton.mp hp, L_tc]; exact Finset.mem_singleton_self _)
    (fun g u hg => by rcases hpos hg with rfl | rfl <;> exact Finset.mem_singleton_self _)
    (fun p hp => by rw [Finset.mem_singleton.mp hp]; exact le_of_eq (lv_bar c ()))
    (fun g u hg => by
      rcases hpos hg with rfl | rfl
      · rw [lv_rcvB]; decide
      · rw [lv_rcvA]; decide)

/-- The copy of the first half, by the send rule: the device lends its `conv` half and pays the arrival duty of `q`'s
    first receive cell with `q`'s `comm` half, which the copy leaves at the converted block. -/
theorem wp_sendA (c q : Dev nD) (hq : peer q = c) {hsc : (cmA : Memref sig (Dev.tc q : Thread nD τ).2.kind .vmem S128x256 .bf16).view.ref.isScScratch = false}
    {hsrc : cvA.view.WordExact} {hdst : cmA.view.WordExact}
    {hsem : DmaTarget.Typed .vmem (.dma rcvA.sem) (.remote (Dev.tc q : Thread nD τ) cmA (.dma sndA.sem) hsc)}
    {α : Type} {Q : α → sProp 𝕄} {k : PUnit → Prog (TpuEff nD τ sig (Elt F) Λ₀ .tc) α}
    (fn : Buf (Elt F) (cmA.view.loc (q : Thread nD τ))) (O : CellTallies nD τ sig Unit) (W : Waits sig Unit) :
    iprop(cellInv ER (sched m) (K (c, 1)) (sndCellA c) ∗ cellInv ER (sched m) (K (q, 3)) (rcvCellA q)
        ∗ (cvA.view.loc (c : Thread nD τ) ↦[cvA.view.set]{fullShare} convOf m c) ∗ (cmA.view.loc (q : Thread nD τ) ↦[cmA.view.set]{fullShare} fn)
        ∗ owes (c : Thread nD τ) (O + tallyAt (rcvCellA q) () N) W
        ∗ dutyTok ER (sndCellA c) 0 () ∗ reached ER (sndCellA c) 0
        ∗ dutyTok ER (rcvCellA q) 0 () ∗ reached ER (rcvCellA q) 0)
      ⊢ iprop(((cred (tallyAt (sndCellA c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cvA (.remote (Dev.tc q : Thread nD τ) cmA (.dma sndA.sem) hsc) (.dma rcvA.sem) hsrc hdst hsem) k) Q) :=
  Rounds.wp_send_pointsTo 𝒱₀ ER (sched m) (c : Thread nD τ) none (κ₁ := K (c, 1)) (κ₂ := K (q, 3))
    (r₁ := 0) (r₂ := 0) (d₁ := ()) (d₂ := ()) (fd := fn)
    (mem_duties m _) (mem_duties m _)
    () () N rfl (amount_sndA m c ()) (amount_rcvA m q ()) O rfl (W := W)
    (Entails.of_eq (by rw [payload_sndA]; rfl))
    (Entails.of_eq (by rw [payload_rcvA, landedA q c fn (convOf m c)]; unfold rcvPayA; rw [hq]))

/-- The copy of the second half, likewise; after it the device owes nothing. -/
theorem wp_sendB (c q : Dev nD) (hq : peer q = c) {hsc : (cmB : Memref sig (Dev.tc q : Thread nD τ).2.kind .vmem S128x256 .bf16).view.ref.isScScratch = false}
    {hsrc : cvB.view.WordExact} {hdst : cmB.view.WordExact}
    {hsem : DmaTarget.Typed .vmem (.dma rcvB.sem) (.remote (Dev.tc q : Thread nD τ) cmB (.dma sndB.sem) hsc)}
    {α : Type} {Q : α → sProp 𝕄} {k : PUnit → Prog (TpuEff nD τ sig (Elt F) Λ₀ .tc) α}
    (fn : Buf (Elt F) (cmB.view.loc (q : Thread nD τ))) (W : Waits sig Unit) :
    iprop(cellInv ER (sched m) (K (c, 2)) (sndCellB c) ∗ cellInv ER (sched m) (K (q, 4)) (rcvCellB q)
        ∗ (cvB.view.loc (c : Thread nD τ) ↦[cvB.view.set]{fullShare} convOf m c) ∗ (cmB.view.loc (q : Thread nD τ) ↦[cmB.view.set]{fullShare} fn)
        ∗ owes (c : Thread nD τ) (tallyAt (rcvCellB q) () N) W
        ∗ dutyTok ER (sndCellB c) 0 () ∗ reached ER (sndCellB c) 0
        ∗ dutyTok ER (rcvCellB q) 0 () ∗ reached ER (rcvCellB q) 0)
      ⊢ iprop(((cred (tallyAt (sndCellB c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cvB (.remote (Dev.tc q : Thread nD τ) cmB (.dma sndB.sem) hsc) (.dma rcvB.sem) hsrc hdst hsem) k) Q) :=
  Rounds.wp_send_pointsTo 𝒱₀ ER (sched m) (c : Thread nD τ) none (κ₁ := K (c, 2)) (κ₂ := K (q, 4))
    (r₁ := 0) (r₂ := 0) (d₁ := ()) (d₂ := ()) (fd := fn)
    (mem_duties m _) (mem_duties m _)
    () () N (by rfl) (amount_sndB m c ()) (amount_rcvB m q ()) 0 (zero_add _).symm (W := W)
    (Entails.of_eq (by rw [payload_sndB]; rfl))
    (Entails.of_eq (by rw [payload_rcvB, landedB q c fn (convOf m c)]; unfold rcvPayB; rw [hq]))

set_option maxHeartbeats 1600000 in
/-- The body on device `c`, whose barrier unit goes to `p` and whose two copies go to `q`. -/
theorem body_at (p c q : Dev nD) (hc : c = peer p) (hq : q = peer c) (Kt : PUnit → sProp 𝕄) (W : Waits sig Unit)
    (fcv : Buf (Elt F) ((c : Thread nD τ).loc cc0_scratch0)) (fcm : Buf (Elt F) ((c : Thread nD τ).loc cc0_scratch1))
    (g1 : Buf (Elt F) ((c : Thread nD τ).loc cc0_stg1_0)) :
    iprop((((cellInv ER (sched m) (K (c, 0)) (barCell c) ∗ cellInv ER (sched m) (K (c, 1)) (sndCellA c) ∗ cellInv ER (sched m) (K (c, 2)) (sndCellB c)
        ∗ cellInv ER (sched m) (K (c, 3)) (rcvCellA c) ∗ cellInv ER (sched m) (K (c, 4)) (rcvCellB c)
        ∗ cellInv ER (sched m) (K (p, 0)) (barCell p) ∗ cellInv ER (sched m) (K (q, 3)) (rcvCellA q)
        ∗ cellInv ER (sched m) (K (q, 4)) (rcvCellB q))
      ∗ atPos ER (barCell c) 0 ∅ 0 ∗ atPos ER (sndCellA c) 0 ∅ 0 ∗ atPos ER (sndCellB c) 0 ∅ 0 ∗ atPos ER (rcvCellA c) 0 ∅ 0 ∗ atPos ER (rcvCellB c) 0 ∅ 0
      ∗ reached ER (barCell p) 0 ∗ reached ER (rcvCellA q) 0 ∗ reached ER (rcvCellB q) 0 ∗ reached ER (sndCellA c) 0 ∗ reached ER (sndCellB c) 0
      ∗ dutyTok ER (barCell p) 0 () ∗ dutyTok ER (rcvCellA q) 0 () ∗ dutyTok ER (rcvCellB q) 0 () ∗ dutyTok ER (sndCellA c) 0 () ∗ dutyTok ER (sndCellB c) 0 ())
      ∗ cred (tallyAt (barCell c) () 1) ∗ cred (tallyAt (rcvCellA c) () N) ∗ cred (tallyAt (rcvCellB c) () N) ∗ levAts L lv
      ∗ (((c : Thread nD τ).loc cc0_scratch0) ↦{fullShare} fcv) ∗ (((c : Thread nD τ).loc cc0_scratch1) ↦{fullShare} fcm))
      ∗ owes (c : Thread nD τ) (tallyAt (rcvCellB q) () N + tallyAt (rcvCellA q) () N + tallyAt (barCell p) () 1) W
      ∗ (((c : Thread nD τ).loc cc0_stg0_0) ↦{fullShare} xstg m c)
      ∗ (((c : Thread nD τ).loc cc0_stg1_0) ↦{fullShare} g1)
      ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  subst hc hq
  simp only [cc0_body_eq_skeleton]; unfold cc0_body_skel
  iintro ⟨⟨⟨⟨#HIbar, #HIsA, #HIsB, #HIrA, #HIrB, #HIbarP, #HIrAP, #HIrBP⟩, HatBar, HatSA, HatSB, HatRA, HatRB, #HrBarP, #HrRAP, #HrRBP, #HrSA, #HrSB, HtBarP, HtRAP, HtRBP, HtSA, HtSB⟩,
    HcBar, HcRA, HcRB, #Hlev, Hcv, Hcm⟩, HO, Hx, Hout, Hk⟩
  ihave Hcmh := (cm_halves (peer p) fcm).1 $$ Hcm
  icases Hcmh with ⟨HcmA, HcmB⟩
  unfold cmPtsA cmPtsB
  ihave Hx := (Entails.of_eq (whole_pts (peer p) cc0_stg0_0 _).symm) $$ Hx
  ihave Hout := (Entails.of_eq (whole_pts (peer p) cc0_stg1_0 _).symm) $$ Hout
  ihave Hcv := (Entails.of_eq (whole_pts (peer p) cc0_scratch0 _).symm) $$ Hcv
  have hmwb := mayWait_barG (F := F) (peer p) (peer (peer p))
  have hd1 : (⟨k0_dev1 (peer p), k0_dev1_lt (peer p)⟩ : Dev nD) = p := (dev1_eq (peer p)).trans (peer_peer p)
  have hd2 := dev2_eq (peer p)
  have hd3 := dev3_eq (peer p)
  sl_exec
  -- `conv` now holds the converted block; hold it by halves for the two copies
  ihave Hcv := (whole_pts_named (peer p) cc0_scratch0 _) $$ Hcv
  icases Hcv with ⟨%gcv, %hgcv, Hcv⟩
  have hcvw : gcv = convOf m (peer p) := by
    rw [hgcv]
    have e1 : View.readAt (Elt F) (Memref.whole cc0_stg0_0 : Memref sig .tc _ _ _).view rW.toLoadRect (xstg m (peer p)) = xstg m (peer p) :=
      Memref.readAt_unit_zero (Elt F) cc0_stg0_0 hz _ (xstg m (peer p))
    show (Memref.whole cc0_scratch0 : Memref sig .tc _ _ _).view.writes (Elt F) fcv
      [⟨rW, k0_pay2 (View.readAt (Elt F) (Memref.whole cc0_stg0_0 : Memref sig .tc _ _ _).view rW.toLoadRect (xstg m (peer p)))⟩] = convOf m (peer p)
    rw [e1, View.writes_singleton]
    exact Memref.write_access_unit_zero_univ (Elt F) cc0_scratch0 hz _ fcv _
  subst hcvw
  ihave Hcvh := (cv_halves (peer p) _).1 $$ Hcv
  icases Hcvh with ⟨HcvA, HcvB⟩
  unfold cvPtsA cvPtsB
  -- the copy of the first half into the partner's `comm`
  iapply (wp_sendA m K (peer p) (peer (peer p)) (peer3 p) HatBar_pay1_v _ _) $$ [HcvA HatBar_pay1 HO HtSA HtRAP]
  · isplitr; · iexact HIsA
    isplitr; · iexact HIrAP
    isplitl [HcvA]; · iexact HcvA
    isplitl [HatBar_pay1]; · iexact HatBar_pay1
    isplitl [HO]; · iexact HO
    isplitl [HtSA]; · iexact HtSA
    isplitr; · iexact HrSA
    isplitl [HtRAP]; · iexact HtRAP
    iexact HrRAP
  iintro ⟨HcSA, HO⟩
  sl_exec
  -- the copy of the second half
  iapply (wp_sendB m K (peer p) (peer (peer p)) (peer3 p) HatBar_pay2_v _) $$ [HcvB HatBar_pay2 HO HtSB HtRBP]
  · isplitr; · iexact HIsB
    isplitr; · iexact HIrBP
    isplitl [HcvB]; · iexact HcvB
    isplitl [HatBar_pay2]; · iexact HatBar_pay2
    isplitl [HO]; · iexact HO
    isplitl [HtSB]; · iexact HtSB
    isplitr; · iexact HrSB
    isplitl [HtRBP]; · iexact HtRBP
    iexact HrRBP
  iintro ⟨HcSB, HO⟩
  sl_exec
  -- the four own cells close: their counters at zero are the device's again
  imod (Rounds.cell_close ER (sched m) (Set.mem_univ (K (peer p, 1))) (fun h => h) (R := 0 + 1) (duties_later m (sndCellA (peer p)))) $$ [HatSA] with HzSA
  · isplitr; · iexact HIsA
    iexact HatSA
  imod (Rounds.cell_close ER (sched m) (Set.mem_univ (K (peer p, 2))) (fun h => h) (R := 0 + 1) (duties_later m (sndCellB (peer p)))) $$ [HatSB] with HzSB
  · isplitr; · iexact HIsB
    iexact HatSB
  imod (Rounds.cell_close ER (sched m) (Set.mem_univ (K (peer p, 3))) (fun h => h) (R := 0 + 1) (duties_later m (rcvCellA (peer p)))) $$ [HatRA] with HzRA
  · isplitr; · iexact HIrA
    iexact HatRA
  imod (Rounds.cell_close ER (sched m) (Set.mem_univ (K (peer p, 4))) (fun h => h) (R := 0 + 1) (duties_later m (rcvCellB (peer p)))) $$ [HatRB] with HzRB
  · isplitr; · iexact HIrB
    iexact HatRB
  -- both scratch buffers whole again
  ihave Hcvj := (cv_join (peer p) (convOf m (peer p)) (convOf m (peer p))) $$ [HatSA_pay1 HatSB_pay1]
  · unfold cvPtsA cvPtsB
    isplitl [HatSA_pay1]; · iexact HatSA_pay1
    iexact HatSB_pay1
  ihave Hcmj := (cm_join (peer p) (convOf m (peer (peer p))) (convOf m (peer (peer p)))) $$ [HatRA_pay1 HatRB_pay1]
  · unfold cmPtsA cmPtsB
    isplitl [HatRA_pay1]; · iexact HatRA_pay1
    iexact HatRB_pay1
  ihave Hx := (Entails.of_eq (whole_pts (peer p) cc0_stg0_0 _)) $$ Hx
  ihave Hout := (whole_pts_named (peer p) cc0_stg1_0 _) $$ Hout
  icases Hout with ⟨%gout, %hgout, Hout⟩
  have hout : gout = outAt m (peer p) := hgout.trans (out_eq m (peer p) g1)
  rw [wp_ret]; imodintro
  iapply Hk
  unfold bodyPost Φ₁ Dat.owesAt Pipeline.owesWithin
  rw [show (dats m 0 (peer p)).owed t₀.succ = 0 from rfl]
  isplitl [Hcvj Hcmj HzSA HzSB HzRA HzRB]
  · isplitl [Hcvj Hcmj]
    · isplitl [Hcvj]; · iexact Hcvj
      iexact Hcmj
    isplitl [HzSA]; · iexact HzSA
    isplitl [HzSB]; · iexact HzSB
    isplitl [HzRA]; · iexact HzRA
    iexact HzRB
  isplitl [HO]
  · iexists _
    isplitr
    swap
    · iexact HO
    ipureintro; exact fun _ _ => Or.inl trivial
  isplitl [Hx]
  · iexists _; isplitr; · (ipureintro; rfl)
    iexact Hx
  iexists _; isplitr; · (ipureintro; exact hout)
  iexact Hout

/-- The body on device `c`: the instance where both the barrier unit and the copies go to the partner. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨Hgh, HcBar, HcRA, HcRB, Hlev, ⟨%fcv, Hcv⟩, ⟨%fcm, Hcm⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁ O₂
  iapply (body_at m K (peer c) c (peer c) (peer_peer c).symm rfl Kt W fcv fcm g1)
  isplitl [Hgh HcBar HcRA HcRB Hlev Hcv Hcm]
  · isplitl [Hgh]; · iexact Hgh
    isplitl [HcBar]; · iexact HcBar
    isplitl [HcRA]; · iexact HcRA
    isplitl [HcRB]; · iexact HcRB
    isplitl [Hlev]; · iexact Hlev
    isplitl [Hcv]; · iexact Hcv
    iexact Hcm
  isplitl [HO]; · iexact HO
  isplitl [Hx]; · iexact Hx
  isplitl [Hout]; · iexact Hout
  iexact Hk

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K', Hg⟩, Hrest⟩, Hscr⟩, Ho, Hx, Hout⟩
  iapply (sound_body m K' c fun _ => bodyPost m c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.KernelIdealProof

end
-- ==== Proof.KernelIdealLaunch.lean ====
/-
  The launch of the pairwise exchange-and-add kernel on the four devices, and its run.

  The exchange's five cells per device are funded at launch: the four own (scoped) semaphores and the runtime's
  barrier semaphore at zero become the cells' invariants in ONE step for all devices (a device's barrier cell is
  opened by its partner too). Each device's five duty tokens are dealt to their payers — the barrier's and the two
  receive cells' to the partner, the two send cells' to the device itself. The credit a device finds on its cells at
  launch is what the others owe them: one unit on its barrier cell, a half's credit on each receive cell, all from
  its partner. The run ends with every device's result array at the result's contents and its input unchanged.
-/
import proofs.«900145_g7700000000000146_dist_ar_v7x_xy2x2_y_m256_n256_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout's side facts -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- Each cell's one duty token as minted. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sndCellA c) 0 () ∗ dutyTok ER (sndCellB c) 0 () ∗ dutyTok ER (rcvCellA c) 0 () ∗ dutyTok ER (rcvCellB c) 0 ())

/-- What the launch element deals device `c`. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin5]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The two send and two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sndCellA c) 0 ∗ semVal (sndCellB c) 0 ∗ semVal (rcvCellA c) 0 ∗ semVal (rcvCellB c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HSA, HSB, HRA, HRB⟩, HB⟩
  isplitl [HB]; · iexact HB
  isplitl [HSA]; · iexact HSA
  isplitl [HSB]; · iexact HSB
  isplitl [HRA] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (rcvCellA (peer c)) 0 () ∗ dutyTok ER (rcvCellB (peer c)) 0 () ∗ dutyTok ER (sndCellA c) 0 () ∗ dutyTok ER (sndCellB c) 0 ())
def linear (c : Dev nD) : sProp 𝕄 :=
  iprop((atPos ER (barCell c) 0 ∅ 0 ∗ atPos ER (sndCellA c) 0 ∅ 0 ∗ atPos ER (sndCellB c) 0 ∅ 0 ∗ atPos ER (rcvCellA c) 0 ∅ 0 ∗ atPos ER (rcvCellB c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaSA, HaSB, HaRA, HaRB⟩, HtBP, HtRAP, HtRBP, HtSA, HtSB⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaSA]; · iexact HaSA
  isplitl [HaSB]; · iexact HaSB
  isplitl [HaRA]; · iexact HaRA
  isplitl [HaRB]; · iexact HaRB
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtBP]; · iexact HtBP
  isplitl [HtRAP]; · iexact HtRAP
  isplitl [HtRBP]; · iexact HtRBP
  isplitl [HtSA]; · iexact HtSA
  iexact HtSB

omit [FloatOps F] in
/-- The tokens dealt across each pair: a barrier's and a receive cell's token to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pair (fun c : Dev nD => (dutyTok ER (barCell c) 0 () : sProp 𝕄)),
    bigSep_univ_equiv pair (fun c : Dev nD => (dutyTok ER (rcvCellA c) 0 () : sProp 𝕄)),
    bigSep_univ_equiv pair (fun c : Dev nD => (dutyTok ER (rcvCellB c) 0 () : sProp 𝕄))]
  iintro ⟨H1, H2, H3, H4, H5⟩
  isplitl [H1]; · iexact H1
  isplitl [H4]; · iexact H4
  isplitl [H5]; · iexact H5
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem rcvA_eq_iff {a b : Dev nD} : Iff (rcvCellA a = rcvCellA b) (a = b) :=
  ⟨fun h => Fin.ext (congrArg (fun g : GSem nD τ sig => g.1.1.val) h), fun h => h ▸ rfl⟩
omit [FloatOps F] in
theorem rcvB_eq_iff {a b : Dev nD} : Iff (rcvCellB a = rcvCellB b) (a = b) :=
  ⟨fun h => Fin.ext (congrArg (fun g : GSem nD τ sig => g.1.1.val) h), fun h => h ▸ rfl⟩

omit [FloatOps F] in
theorem eq_peer_of {d c : Dev nD} (h : c = peer d) : d = peer c := by rw [h, peer_peer]

omit [FloatOps F] in
/-- What device `d` owes device `c`'s barrier cell: a unit if it is `c`'s partner. -/
theorem owed_bar (d c : Dev nD) : O₀ d (barCell c) () = if d = peer c then 1 else 0 := by
  unfold O₀ O₁ O₂
  rw [Pi.add_apply, Finsupp.add_apply, Pi.add_apply, Finsupp.add_apply, tallyAt_apply, tallyAt_apply, tallyAt_apply,
    if_neg (fun h : barCell c = rcvCellB (peer d) ∧ () = () => rcvB_ne_bar (congrArg Prod.snd h.1).symm),
    if_neg (fun h : barCell c = rcvCellA (peer d) ∧ () = () => rcvA_ne_bar (congrArg Prod.snd h.1).symm)]
  by_cases h : d = peer c
  · subst h; rw [peer_peer, if_pos ⟨rfl, rfl⟩, if_pos rfl]; try omega
  · rw [if_neg (fun h' : barCell c = barCell (peer d) ∧ () = () => h (eq_peer_of (bar_eq_iff.mp h'.1))), if_neg h]; try omega

omit [FloatOps F] in
theorem owed_rcvA (d c : Dev nD) : O₀ d (rcvCellA c) () = if d = peer c then N else 0 := by
  unfold O₀ O₁ O₂
  rw [Pi.add_apply, Finsupp.add_apply, Pi.add_apply, Finsupp.add_apply, tallyAt_apply, tallyAt_apply, tallyAt_apply,
    if_neg (fun h : rcvCellA c = rcvCellB (peer d) ∧ () = () => rcvA_ne_rcvB (congrArg Prod.snd h.1)),
    if_neg (fun h : rcvCellA c = barCell (peer d) ∧ () = () => rcvA_ne_bar (congrArg Prod.snd h.1))]
  by_cases h : d = peer c
  · subst h; rw [peer_peer, if_pos ⟨rfl, rfl⟩, if_pos rfl]; try omega
  · rw [if_neg (fun h' : rcvCellA c = rcvCellA (peer d) ∧ () = () => h (eq_peer_of (rcvA_eq_iff.mp h'.1))), if_neg h]; try omega

omit [FloatOps F] in
theorem owed_rcvB (d c : Dev nD) : O₀ d (rcvCellB c) () = if d = peer c then N else 0 := by
  unfold O₀ O₁ O₂
  rw [Pi.add_apply, Finsupp.add_apply, Pi.add_apply, Finsupp.add_apply, tallyAt_apply, tallyAt_apply, tallyAt_apply,
    if_neg (fun h : rcvCellB c = rcvCellA (peer d) ∧ () = () => rcvB_ne_rcvA (congrArg Prod.snd h.1)),
    if_neg (fun h : rcvCellB c = barCell (peer d) ∧ () = () => rcvB_ne_bar (congrArg Prod.snd h.1))]
  by_cases h : d = peer c
  · subst h; rw [peer_peer, if_pos ⟨rfl, rfl⟩, if_pos rfl]; try omega
  · rw [if_neg (fun h' : rcvCellB c = rcvCellB (peer d) ∧ () = () => h (eq_peer_of (rcvB_eq_iff.mp h'.1))), if_neg h]; try omega

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]
omit [FloatOps F] in
theorem launch_rcvA (c : Dev nD) :
    tallyOn (rcvCellA c) (launchCredit (Pipeline.owing O₀) 0 (rcvCellA c)) = (tallyAt (rcvCellA c) () N : CellTallies nD τ sig Unit) := by
  unfold tallyAt; refine congrArg _ (Finsupp.ext fun u => ?_); cases u
  rw [Pipeline.launchCredit_owing, Finsupp.single_eq_same, Finset.sum_congr rfl fun d _ => owed_rcvA d c,
    Finset.sum_ite_eq' Finset.univ (peer c) fun _ => N, if_pos (Finset.mem_univ _)]
omit [FloatOps F] in
theorem launch_rcvB (c : Dev nD) :
    tallyOn (rcvCellB c) (launchCredit (Pipeline.owing O₀) 0 (rcvCellB c)) = (tallyAt (rcvCellB c) () N : CellTallies nD τ sig Unit) := by
  unfold tallyAt; refine congrArg _ (Finsupp.ext fun u => ?_); cases u
  rw [Pipeline.launchCredit_owing, Finsupp.single_eq_same, Finset.sum_congr rfl fun d _ => owed_rcvB d c,
    Finset.sum_ite_eq' Finset.univ (peer c) fun _ => N, if_pos (Finset.mem_univ _)]

omit [FloatOps F] in
/-- The credit device `c` finds at launch: its barrier cell's unit and its two receive cells' credit. -/
theorem creds (c : Dev nD) :
    (Pipeline.launchCred O₀ c : sProp 𝕄) ⊢ iprop(cred (tallyAt (barCell c) () 1) ∗ cred (tallyAt (rcvCellA c) () N) ∗ cred (tallyAt (rcvCellB c) () N)) := by
  unfold Pipeline.launchCred
  rw [bigSep_univ_at _ (SemLoc.reg barS), launch_bar,
    BI.bigSep_erase (i := (SemLoc.dma rcvA.sem : SemLoc sig)) (Finset.mem_erase.mpr ⟨rcvA_ne_bar, Finset.mem_univ _⟩), launch_rcvA]
  refine sep_mono_right (sep_mono_right ?_)
  rw [← launch_rcvB]
  exact bigSep_elim (Finset.mem_erase.mpr ⟨rcvB_ne_rcvA, Finset.mem_erase.mpr ⟨rcvB_ne_bar, Finset.mem_univ _⟩⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HA, HB⟩
  imodintro
  unfold start G'
  isplitl
  · isplitl [HG]; · iexact HG
    isplitl [H1]; · iexact H1
    isplitl [HA]; · iexact HA
    isplitl [HB]; · iexact HB
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — the two pairs handshaking on the runtime's barrier semaphore, then exchanging their blocks
    by halves — terminates, and every final state has each device's arrays at the computed contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m c (0 : Fin 2) = m (win0_0.arr.view.loc (c : Thread nD τ)) :=
  (dats (F := F) m 0 c).arrAt_in (0 : Fin 2) rfl _

end Cert.KernelIdealProof

end
-- ==== Proof.KernelIdealRun.lean ====
/-
  The run of the pairwise exchange-and-add kernel with its strongest post: on every device the result array ends
  at the result's contents — on each half of the rows, the device's block plus its partner's converted block —
  and the input array ends as it began. Each frame claim is this run with the value dropped.
-/
import proofs.«900145_g7700000000000146_dist_ar_v7x_xy2x2_y_m256_n256_f32_1_alg».proof.Proof.KernelIdealLaunch

noncomputable section

namespace Cert.KernelIdealProof

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The result array after the run, read through its one block: what the body left at the one point. -/
theorem final_out (c : Dev nD) :
    ((cfg0.win (1 : Fin 2)).blk t₀).view.read (Elt F) ((dats (F := F) m 0 c).arrAt (1 : Fin 2) cfg0.N)
      = (dats (F := F) m 0 c).flushed (1 : Fin 2) t₀ := by
  rw [show cfg0.N = (t₀ : Fin cfg0.N).val + 1 from rfl, (dats (F := F) m 0 c).arrAt_succ (1 : Fin 2) t₀]
  rw [show (cfg0.win (1 : Fin 2)).flush t₀ = true from flush0_1 t₀, if_pos rfl]
  exact View.read_write_univ _ _

/-- The block of a whole window is the array. -/
theorem xstg_eq (c : Dev nD) : xstg m c = m ((c : Thread nD τ).loc main_arg0) := by
  have hz : (fun a => (win0_0.index t₀) a * main_arg0.ty.shape.size a) = fun _ => 0 := funext fun a => by fin_cases a <;> decide
  exact Memref.read_access_unit_zero (Elt F) main_arg0 hz (fun a => by fin_cases a <;> decide) _

/-- The result array after the run holds the result's contents. -/
theorem final_value (c : Dev nD) : (dats (F := F) m 0 c).arrAt (1 : Fin 2) cfg0.N = outAt m c := by
  have ho := final_out (F := F) m c
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-- Every weakly fair execution on the four devices terminates, no fault, each device's result array at the result's
    contents and its input array unchanged. -/
theorem run_named : θ_run defs (onTc (τ := τ) (main (F := F))) ⟨m, fun _ => 0, ρ⟩ (fun r => ∀ c : Dev nD,
    r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c (1 : Fin 2)).trans (final_value m c), (h c (0 : Fin 2)).trans (finalA_x m c)⟩) (run_main m ρ)

end Cert.KernelIdealProof

end
-- ==== Proof.Value.lean ====
/-
  The value of the pairwise exchange-and-add kernel against the one-device reference, over the extended reals.

  The reference reshapes the 512 × 256 input X into two 256 × 256 blocks and sums them: its result at (r, j) is
  0 + (X(r, j) + X(256 + r, j)). Device `c` holds block `c % 2` of X: rows 256·(c % 2) … of X. Its result at (r, j)
  is its own block's entry plus its partner's block's entry there — the conversion to the narrow format and back is
  the identity on the extended reals — and the partner holds the OTHER block. So a device with `c % 2 = 0` ends with
  X(r, j) + X(256 + r, j), one with `c % 2 = 1` with X(256 + r, j) + X(r, j): the reference's sum, by commutativity of
  addition on the extended reals (no finiteness is used).
-/
import proofs.«900145_g7700000000000146_dist_ar_v7x_xy2x2_y_m256_n256_f32_1_alg».proof.Defs
import proofs.«900145_g7700000000000146_dist_ar_v7x_xy2x2_y_m256_n256_f32_1_alg».proof.Proof.KernelIdealRun
import proofs.«900145_g7700000000000146_dist_ar_v7x_xy2x2_y_m256_n256_f32_1_alg».proof.Proof.Gen.ReferenceIdeal.Run
import proofs.«900145_g7700000000000146_dist_ar_v7x_xy2x2_y_m256_n256_f32_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ExchangeValue

open Idealize.ShloMosaic Idealize.ShloMosaic.TcCoe Idealize.SL.Sem
open Cert.KernelIdeal Cert.KernelIdeal.Gen Cert.KernelIdealProof

/-! ## What two stores leave, over any two rectangles -/

theorem canon_pair_first {S : Shape} {e : EltTy} (r₁ r₂ : Rect S) (w₁ : r₁.shape.Idx → Elt Ideal e) (w₂ : r₂.shape.Idx → Elt Ideal e)
    (y : r₁.shape.Idx) :
    View.canon [(⟨r₁, w₁⟩ : View.Piece (Elt Ideal) S e), ⟨r₂, w₂⟩] (r₁.idx y) = w₁ y :=
  View.canon_cons_emb r₁ w₁ _ y

theorem canon_pair_second {S : Shape} {e : EltTy} (r₁ r₂ : Rect S) (w₁ : r₁.shape.Idx → Elt Ideal e) (w₂ : r₂.shape.Idx → Elt Ideal e)
    (y : r₂.shape.Idx) (h : r₂.idx y ∉ r₁.set) :
    View.canon [(⟨r₁, w₁⟩ : View.Piece (Elt Ideal) S e), ⟨r₂, w₂⟩] (r₂.idx y) = w₂ y := by
  rw [View.canon_cons_of_not_mem (⟨r₁, w₁⟩ : View.Piece (Elt Ideal) S e) [⟨r₂, w₂⟩] h]
  exact View.canon_cons_emb r₂ w₂ [] y

/-! ## The kernel's result at an index -/

set_option maxHeartbeats 1000000 in
/-- On either half of the rows the stored value at an index is the device's entry plus its partner's. -/
theorem outAt_apply (m : (ℓ : Loc nD τ sig) → Buf (Elt Ideal) ℓ) (c : Dev nD) (i : S256x256.Idx) :
    outAt (F := Ideal) m c i = (show EReal from xstg m c i) + (show EReal from xstg m (peer c) i) := by
  unfold outAt
  rcases halves_cover i with h | h
  · have hn : i ∉ rB.set := Finset.disjoint_left.mp halves_disjoint h
    obtain ⟨y, rfl⟩ := rA.exists_idx_of_mem h
    rw [canon_pair_second (e := EltTy.f32) rB rA (k0_pay1 (View.ld (xstg m c) rB) (View.ld (convOf m (peer c)) rB))
      (k0_pay3 (View.ld (xstg m c) rA) (View.ld (convOf m (peer c)) rA)) y hn]
    unfold k0_pay3 convOf k0_pay2
    simp only [shapeCast_self]
    rfl
  · obtain ⟨y, rfl⟩ := rB.exists_idx_of_mem h
    rw [canon_pair_first (e := EltTy.f32) rB rA (k0_pay1 (View.ld (xstg m c) rB) (View.ld (convOf m (peer c)) rB))
      (k0_pay3 (View.ld (xstg m c) rA) (View.ld (convOf m (peer c)) rA)) y]
    unfold k0_pay1 convOf k0_pay2
    simp only [shapeCast_self]
    rfl

/-! ## The reference's result at an index -/

open Cert.ReferenceIdeal.Read in
/-- The sum over the two blocks, the initial zero gone. -/
theorem ref_apply (X : (⟨Cert.ReferenceIdeal.S512x256, .f32⟩ : BufTy).Contents (Elt Ideal)) (i : Cert.ReferenceIdeal.S256x256.Idx) :
    val_main_v1 (F := Ideal) X i
      = (show EReal from X (idx_main_v0 (idx_main_v1 i 0))) + (show EReal from X (idx_main_v0 (idx_main_v1 i 1))) := by
  rw [val_main_v1_apply, Fin.sum_univ_two, val_main_v0_apply, val_main_v0_apply]
  show Ideal.ofBits .f32 0x00000000#32 + _ = _
  rw [Ideal.ofBits_zero_f32, zero_add]

/-! ## Which rows of X a device's block holds -/

theorem meshLin_y (n : ℕ) : Layout.meshLin [2, 2] n [1] = n % 2 := by
  simp [Layout.meshLin, Layout.meshCoord, Layout.cutSize]

theorem peer_odd : ∀ c : Dev nD, c.val % 2 = 0 → (peer c).val % 2 = 1 := by decide
theorem peer_even : ∀ c : Dev nD, c.val % 2 = 1 → (peer c).val % 2 = 0 := by decide

open Cert.ReferenceIdeal.Read in
/-- A device with second mesh coordinate 0 holds the first block: its index (r, j) is X's (r, j). -/
theorem blk_even (c : Dev nD) (hc : c.val % 2 = 0)
    (h : Layout.TilesN ⟨2, ![256, 256]⟩ ⟨2, ![512, 256]⟩ (fun b => Layout.cutSize [2, 2] ((![[1], []] : Fin 2 → List ℕ) b)))
    (i : S256x256.Idx) : h.idx (Layout.meshBlock [2, 2] ![[1], []] c) i = idx_main_v0 (idx_main_v1 i 0) := by
  have h0 : (i 0).val < 256 := (i 0).isLt
  have h1 : (i 1).val < 256 := (i 1).isLt
  funext a
  apply Fin.ext
  rw [Layout.TilesN.idx_val]
  fin_cases a
  · show Layout.meshLin [2, 2] c.val [1] * 256 + (i 0).val = ((0 * 256 + (i 0).val) * 256 + (i 1).val) / 256
    rw [meshLin_y, hc]; omega
  · show 0 * 256 + (i 1).val = ((0 * 256 + (i 0).val) * 256 + (i 1).val) % 256
    omega

open Cert.ReferenceIdeal.Read in
/-- A device with second mesh coordinate 1 holds the second block: its index (r, j) is X's (256 + r, j). -/
theorem blk_odd (c : Dev nD) (hc : c.val % 2 = 1)
    (h : Layout.TilesN ⟨2, ![256, 256]⟩ ⟨2, ![512, 256]⟩ (fun b => Layout.cutSize [2, 2] ((![[1], []] : Fin 2 → List ℕ) b)))
    (i : S256x256.Idx) : h.idx (Layout.meshBlock [2, 2] ![[1], []] c) i = idx_main_v0 (idx_main_v1 i 1) := by
  have h0 : (i 0).val < 256 := (i 0).isLt
  have h1 : (i 1).val < 256 := (i 1).isLt
  funext a
  apply Fin.ext
  rw [Layout.TilesN.idx_val]
  fin_cases a
  · show Layout.meshLin [2, 2] c.val [1] * 256 + (i 0).val = ((1 * 256 + (i 0).val) * 256 + (i 1).val) / 256
    rw [meshLin_y, hc]; omega
  · show 0 * 256 + (i 1).val = ((1 * 256 + (i 0).val) * 256 + (i 1).val) % 256
    omega

/-! ## The two results are one -/

open Cert.ReferenceIdeal.Read in
/-- Every device's result is the reference's: the sum of the two blocks, in one order or the other. -/
theorem result_eq (m : (ℓ : Loc nD τ sig) → Buf (Elt Ideal) ℓ)
    (X : (⟨Cert.ReferenceIdeal.S512x256, .f32⟩ : BufTy).Contents (Elt Ideal))
    (hag : ∀ c : Dev nD, m ((c.tc : Thread nD τ).loc main_arg0)
      = Layout.blockN ⟨2, ![256, 256]⟩ ⟨2, ![512, 256]⟩ (Layout.meshBlock [2, 2] ![[1], []] c) X) (c : Dev nD) :
    outAt (F := Ideal) m c = val_main_v1 (F := Ideal) X := by
  funext i
  rw [outAt_apply, ref_apply, xstg_eq, xstg_eq, hag c, hag (peer c)]
  simp only [Layout.blockN_apply]
  rcases Nat.mod_two_eq_zero_or_one c.val with hc | hc
  · rw [blk_even c hc, blk_odd (peer c) (peer_odd c hc)]
  · rw [blk_odd c hc, blk_even (peer c) (peer_even c hc)]
    exact add_comm (G := EReal) _ _

end Cert.ExchangeValue

end
-- ==== Proof.lean ====
/-
  The pairwise exchange-and-add on a 2 × 2 mesh against the sum of the input's two row-blocks on one device.

  Each of the four devices holds one 256 × 256 row-block of the 512 × 256 input X (the block its second mesh
  coordinate names), exchanges a converted copy of it with the device holding the other block, and ends with the
  sum of the two blocks. The reference sums the two blocks of X directly. Over the extended reals the format
  conversion is the identity and addition is commutative, so every device's result is the reference's.

  The three frames: each program's run terminates without fault and leaves its input as it was. For the kernel, at
  both instances, this is the run of the four devices' bodies under the exchange's protocol — each device's barrier
  unit, its two copies and its five waits, none of which can block for ever: a device waits on its barrier cell
  owing only receive credit, which sits above it — with the value dropped; for the reference, its run read back.
  The idealization rewrote no operation, so nothing is owed for it. The algebraic claim pairs the kernel's run at
  the extended reals, each result named, with the reference's.
-/
import proofs.«900145_g7700000000000146_dist_ar_v7x_xy2x2_y_m256_n256_f32_1_alg».proof.Defs
import proofs.«900145_g7700000000000146_dist_ar_v7x_xy2x2_y_m256_n256_f32_1_alg».proof.Proof.Gen.Kernel
import proofs.«900145_g7700000000000146_dist_ar_v7x_xy2x2_y_m256_n256_f32_1_alg».proof.Proof.Gen.KernelIdeal
import proofs.«900145_g7700000000000146_dist_ar_v7x_xy2x2_y_m256_n256_f32_1_alg».proof.Proof.Gen.ReferenceIdeal
import proofs.«900145_g7700000000000146_dist_ar_v7x_xy2x2_y_m256_n256_f32_1_alg».proof.Proof.Gen.Pre_finite_inputs_Kernel
import proofs.«900145_g7700000000000146_dist_ar_v7x_xy2x2_y_m256_n256_f32_1_alg».proof.Proof.Gen.Pre_finite_inputs_ReferenceIdeal
import proofs.«900145_g7700000000000146_dist_ar_v7x_xy2x2_y_m256_n256_f32_1_alg».proof.Proof.Gen.ReferenceIdeal.Run
import proofs.«900145_g7700000000000146_dist_ar_v7x_xy2x2_y_m256_n256_f32_1_alg».proof.Proof.Gen.ReferenceIdeal.Read
import proofs.«900145_g7700000000000146_dist_ar_v7x_xy2x2_y_m256_n256_f32_1_alg».proof.Proof.KernelRun
import proofs.«900145_g7700000000000146_dist_ar_v7x_xy2x2_y_m256_n256_f32_1_alg».proof.Proof.KernelIdealRun
import proofs.«900145_g7700000000000146_dist_ar_v7x_xy2x2_y_m256_n256_f32_1_alg».proof.Proof.Value
import Idealize.ShloMosaic.Adequacy
import Idealize.ShloMosaic.Init

noncomputable section

namespace Cert.Proof

open Idealize.ShloMosaic Idealize.SL.Sem

/-- The word-level kernel: its run, the result's value dropped. -/
theorem frame_k : Cert.frame_Kernel := fun m ρ _ =>
  (θ_run Cert.Kernel.defs _ _).mono (fun _ h c => (h c).2) (Cert.KernelProof.run_named (F := Bits) m ρ)

/-- The idealized kernel: likewise. -/
theorem frame_ki : Cert.frame_KernelIdeal := fun m ρ _ =>
  (θ_run Cert.KernelIdeal.defs _ _).mono (fun _ h c => (h c).2) (Cert.KernelIdealProof.run_named (F := Ideal) m ρ)

/-- The reference: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both runs end, every device's result the reference's sum of the two blocks. -/
theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.ExchangeValue.result_eq m _ hagree c), (h c).2⟩)
      (Cert.KernelIdealProof.run_named (F := Ideal) m ρ)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
